-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x64 : Shape := ⟨2, ![512, 64]⟩
abbrev S64 : Shape := ⟨1, ![64]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S512x64 .f32) (main_arg8 : FVec F S64 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S512x64 .f32) (main_arg6 : FVec F S64 .f32) (main_arg7 : FVec F S512x64 .f32) (main_arg8 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8x2048x512 .f32) (main_arg1 : FVec F S8x2048x512 .f32) (main_arg2 : FVec F S8x2048x512 .f32) (main_arg3 : FVec F S512x64 .f32) (main_arg4 : FVec F S64 .f32) (main_arg5 : FVec F S512x64 .f32) (main_arg6 : FVec F S64 .f32) (main_arg7 : FVec F S512x64 .f32) (main_arg8 : FVec F S64 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_v13 main_v16
-- ==== Kernel.lean ====
abbrev S8x2048x512 : Shape := ⟨3, ![8, 2048, 512]⟩
abbrev S512x64 : Shape := ⟨2, ![512, 64]⟩
abbrev S64 : Shape := ⟨1, ![64]⟩
abbrev S8x2048x64 : Shape := ⟨3, ![8, 2048, 64]⟩
abbrev S1x1024x512 : Shape := ⟨3, ![1, 1024, 512]⟩
abbrev S1x1024x64 : Shape := ⟨3, ![1, 1024, 64]⟩
abbrev S1024x512 : Shape := ⟨2, ![1024, 512]⟩
abbrev S1024x64 : Shape := ⟨2, ![1024, 64]⟩
abbrev S1x64 : Shape := ⟨2, ![1, 64]⟩
abbrev S1x512x64 : Shape := ⟨3, ![1, 512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 26
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S512x64, .f32⟩
  | .hbm, ⟨8, _⟩ => ⟨S64, .f32⟩
  | .hbm, ⟨9, _⟩ => ⟨S8x2048x64, .bf16⟩
  | .hbm, ⟨10, _⟩ => ⟨S8x2048x64, .bf16⟩
  | .hbm, ⟨11, _⟩ => ⟨S8x2048x64, .bf16⟩
  | .hbm, ⟨12, _⟩ => ⟨S8x2048x64, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S512x64, .f32⟩
  | .local _ .vmem, ⟨7, _⟩ => ⟨S64, .f32⟩
  | .local _ .vmem, ⟨8, _⟩ => ⟨S512x64, .f32⟩
  | .local _ .vmem, ⟨9, _⟩ => ⟨S64, .f32⟩
  | .local _ .vmem, ⟨10, _⟩ => ⟨S512x64, .f32⟩
  | .local _ .vmem, ⟨11, _⟩ => ⟨S64, .f32⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x512x64, .bf16⟩
  | .local _ .vmem, ⟨19, _⟩ => ⟨S1x512x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x512x64, .f32⟩
  | .local _ .vmem, ⟨25, _⟩ => ⟨S1x512x64, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S1024x512_S512x64_S1024x64_1_0_0_1_n_n_wf : DotDims.WF S1024x512 S512x64 S1024x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x2048x512.size a
  hwx0_0 : ∀ i : grid0.Coords, EltTy.bits .f32 = 32 ∨ (Rect.block (s := S8x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x2048x512.size a
  hwx0_1 : ∀ i : grid0.Coords, EltTy.bits .f32 = 32 ∨ (Rect.block (s := S8x2048x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x512.size a
  hwx0_2 : ∀ i : grid0.Coords, EltTy.bits .f32 = 32 ∨ (Rect.block (s := S8x2048x512) S1x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .f32 = 32 ∨ (Rect.block (s := S512x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x64.size a ≤ S8x2048x64.size a
  hwx0_9 : ∀ i : grid0.Coords, EltTy.bits .bf16 = 32 ∨ (Rect.block (s := S8x2048x64) S1x1024x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x64.size a ≤ S8x2048x64.size a
  hwx0_10 : ∀ i : grid0.Coords, EltTy.bits .bf16 = 32 ∨ (Rect.block (s := S8x2048x64) S1x1024x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x64.size a ≤ S8x2048x64.size a
  hwx0_11 : ∀ i : grid0.Coords, EltTy.bits .bf16 = 32 ∨ (Rect.block (s := S8x2048x64) S1x1024x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .bf16 = 32 ∨ (Rect.block (s := S8x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .bf16 = 32 ∨ (Rect.block (s := S8x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1x1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1x1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S1x1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S512x64 : Shape := ⟨2, ![512, 64]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S512x64, .f32⟩
  | .hbm, ⟨8, _⟩ => ⟨S64, .f32⟩
  | .hbm, ⟨9, _⟩ => ⟨S8x2048x64, .f32⟩
  | .hbm, ⟨10, _⟩ => ⟨S1x1x64, .f32⟩
  | .hbm, ⟨11, _⟩ => ⟨S8x2048x64, .f32⟩
  | .hbm, ⟨12, _⟩ => ⟨S8x2048x64, .f32⟩
  | .hbm, ⟨13, _⟩ => ⟨S8x2048x64, .f32⟩
  | .hbm, ⟨14, _⟩ => ⟨S1x1x64, .f32⟩
  | .hbm, ⟨15, _⟩ => ⟨S8x2048x64, .f32⟩
  | .hbm, ⟨16, _⟩ => ⟨S8x2048x64, .f32⟩
  | .hbm, ⟨17, _⟩ => ⟨S8x2048x64, .f32⟩
  | .hbm, ⟨18, _⟩ => ⟨S1x1x64, .f32⟩
  | .hbm, ⟨19, _⟩ => ⟨S8x2048x64, .f32⟩
  | .hbm, ⟨20, _⟩ => ⟨S8x2048x64, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x64, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x64_S8x2048x64_2_0_01_1_n_n_wf : DotDims.WF S8x2048x512 S512x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x512_S512x64_S8x2048x64_2_0_01_1_n_n : DotDims S8x2048x512 S512x64 S8x2048x64 where
  lhsContracting := [2]
  rhsContracting := [0]
  lhsNonContracting := [0, 1]
  rhsNonContracting := [1]
  lhsBatch := []
  rhsBatch := []
  wf := dot_S8x2048x512_S512x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelRun.lean ====
/-
  The idealized kernel's run with its result array named.

  The program is two pipelined regions in sequence: the projections, then the attention over their outputs. The
  generated frame proves that every weakly fair execution terminates, without a fault, in a state whose unscoped
  buffers hold the contents the second region's write-backs leave; it then keeps only the argument arrays in its
  post. Here the same launch is read once more with the result buffer kept: after the run the result array holds
  what the second region's pipeline leaves in its output window's array (its write-backs folded over the grid),
  and the arguments are as launched.
-/
import proofs.«108945_j78099685310952_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array after the second region: what that region's pipeline leaves in its output window's array. -/
theorem result_eq (c : Dev nD) :
    W2 m ρ c (Proc.devRef .tc main_v1) = (dat1 (V1 m ρ) c).arrAt 3 cfg1.N := W2_arr m ρ c 3

set_option backward.isDefEq.respectTransparency.types false in
/-- Every weakly fair execution of the idealized kernel terminates, nothing faulting, with the result array at what
    the second region's pipeline leaves and every argument array as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_eq m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c)⟩)

/-- What the second region reads as its three operands are the first region's three output arrays as its
    pipeline leaves them. -/
theorem entry_q (c : Dev nD) : V1 m ρ c main_v0_0 = (dat0 (V0 m ρ) c).arrAt 9 cfg0.N := W1_arr m ρ c 9
theorem entry_k (c : Dev nD) : V1 m ρ c main_v0_1 = (dat0 (V0 m ρ) c).arrAt 10 cfg0.N := W1_arr m ρ c 10
theorem entry_v (c : Dev nD) : V1 m ρ c main_v0_2 = (dat0 (V0 m ρ) c).arrAt 11 cfg0.N := W1_arr m ρ c 11

end Cert.KernelIdeal.Whole

end
-- ==== Proof.KernelDots.lean ====
/-
  The idealized kernel's three matrix products, each read at one entry of its result as the plain sum over the
  contraction index of the products of the operands' entries (into a zero accumulator, at the exact instance where
  a product has no rounding and no chunk order):

  * a projection tile: rows of the input block [1024, 512] against a weight matrix [512, 64];
  * the score tile: query rows [512, 64] against key rows [2048, 64], contracted over the feature index
    (no transpose is materialized: both operands carry the contraction on their second axis);
  * the output tile: weight rows [512, 2048] against the values [2048, 64].
-/
import proofs.«108945_j78099685310952_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.ValueIdx

theorem proj_lhs0 (o : S1024x64.Idx) (q : dot_S1024x512_S512x64_S1024x64_1_0_0_1_n_n.contr.Idx) :
    (dot_S1024x512_S512x64_S1024x64_1_0_0_1_n_n.lhsIdx o q 0).val = (o 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem proj_lhs1 (o : S1024x64.Idx) (q : dot_S1024x512_S512x64_S1024x64_1_0_0_1_n_n.contr.Idx) :
    (dot_S1024x512_S512x64_S1024x64_1_0_0_1_n_n.lhsIdx o q 1).val = (q ⟨0, by decide⟩).val :=
  dot_S1024x512_S512x64_S1024x64_1_0_0_1_n_n.lhsIdx_val_of_single rfl o q
theorem proj_rhs0 (o : S1024x64.Idx) (q : dot_S1024x512_S512x64_S1024x64_1_0_0_1_n_n.contr.Idx) :
    (dot_S1024x512_S512x64_S1024x64_1_0_0_1_n_n.rhsIdx o q 0).val = (q ⟨0, by decide⟩).val :=
  dot_S1024x512_S512x64_S1024x64_1_0_0_1_n_n.rhsIdx_val_of_single rfl o q
theorem proj_rhs1 (o : S1024x64.Idx) (q : dot_S1024x512_S512x64_S1024x64_1_0_0_1_n_n.contr.Idx) :
    (dot_S1024x512_S512x64_S1024x64_1_0_0_1_n_n.rhsIdx o q 1).val = (o 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- A projection tile at (r, c): the sum over k of the input row r at k times the weight at (k, c). -/
theorem proj_apply (a : FVec Ideal S1024x512 .bf16) (b : FVec Ideal S512x64 .bf16) (r : Fin 1024) (c : Fin 64) :
    matmul dot_S1024x512_S512x64_S1024x64_1_0_0_1_n_n none a b (constant (F := Ideal) S1024x64 .f32 0x00000000#32) (ix2 r c)
      = ∑ k : Fin 512, a (ix2 r k) * b (ix2 k c) := by
  simp only [matmul]
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r c) ((contrEquiv1 dot_S1024x512_S512x64_S1024x64_1_0_0_1_n_n 512 rfl rfl).symm k) = ix2 r k := funext fun x => Fin.ext (by
    match x with
    | ⟨0, _⟩ => exact proj_lhs0 _ _
    | ⟨1, _⟩ => exact (proj_lhs1 _ _).trans hk)
  have er : dot_S1024x512_S512x64_S1024x64_1_0_0_1_n_n.rhsIdx (ix2 r c) ((contrEquiv1 dot_S1024x512_S512x64_S1024x64_1_0_0_1_n_n 512 rfl rfl).symm k) = ix2 k c := funext fun x => Fin.ext (by
    match x with
    | ⟨0, _⟩ => exact (proj_rhs0 _ _).trans hk
    | ⟨1, _⟩ => exact proj_rhs1 _ _)
  rw [el, er]

theorem score_lhs0 (o : S512x2048.Idx) (q : dot_S512x64_S2048x64_S512x2048_1_1_0_0_n_n.contr.Idx) :
    (dot_S512x64_S2048x64_S512x2048_1_1_0_0_n_n.lhsIdx o q 0).val = (o 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem score_lhs1 (o : S512x2048.Idx) (q : dot_S512x64_S2048x64_S512x2048_1_1_0_0_n_n.contr.Idx) :
    (dot_S512x64_S2048x64_S512x2048_1_1_0_0_n_n.lhsIdx o q 1).val = (q ⟨0, by decide⟩).val :=
  dot_S512x64_S2048x64_S512x2048_1_1_0_0_n_n.lhsIdx_val_of_single rfl o q
theorem score_rhs0 (o : S512x2048.Idx) (q : dot_S512x64_S2048x64_S512x2048_1_1_0_0_n_n.contr.Idx) :
    (dot_S512x64_S2048x64_S512x2048_1_1_0_0_n_n.rhsIdx o q 0).val = (o 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem score_rhs1 (o : S512x2048.Idx) (q : dot_S512x64_S2048x64_S512x2048_1_1_0_0_n_n.contr.Idx) :
    (dot_S512x64_S2048x64_S512x2048_1_1_0_0_n_n.rhsIdx o q 1).val = (q ⟨0, by decide⟩).val :=
  dot_S512x64_S2048x64_S512x2048_1_1_0_0_n_n.rhsIdx_val_of_single rfl o q

/-- The score tile at (i, j): the sum over the feature index k of query row i at k times key row j at k. -/
theorem score_apply (a : FVec Ideal S512x64 .bf16) (b : FVec Ideal S2048x64 .bf16) (r : Fin 512) (c : Fin 2048) :
    matmul dot_S512x64_S2048x64_S512x2048_1_1_0_0_n_n none a b (constant (F := Ideal) S512x2048 .f32 0x00000000#32) (ix2 r c)
      = ∑ k : Fin 64, a (ix2 r k) * b (ix2 c k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k := funext fun x => Fin.ext (by
    match x with
    | ⟨0, _⟩ => exact score_lhs0 _ _
    | ⟨1, _⟩ => exact (score_lhs1 _ _).trans hk)
  have er : dot_S512x64_S2048x64_S512x2048_1_1_0_0_n_n.rhsIdx (ix2 r c) ((contrEquiv1 dot_S512x64_S2048x64_S512x2048_1_1_0_0_n_n 64 rfl rfl).symm k) = ix2 c k := funext fun x => Fin.ext (by
    match x with
    | ⟨0, _⟩ => exact score_rhs0 _ _
    | ⟨1, _⟩ => exact (score_rhs1 _ _).trans hk)
  rw [el, er]

theorem out_lhs0 (o : S512x64.Idx) (q : dot_S512x2048_S2048x64_S512x64_1_0_0_1_n_n.contr.Idx) :
    (dot_S512x2048_S2048x64_S512x64_1_0_0_1_n_n.lhsIdx o q 0).val = (o 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem out_lhs1 (o : S512x64.Idx) (q : dot_S512x2048_S2048x64_S512x64_1_0_0_1_n_n.contr.Idx) :
    (dot_S512x2048_S2048x64_S512x64_1_0_0_1_n_n.lhsIdx o q 1).val = (q ⟨0, by decide⟩).val :=
  dot_S512x2048_S2048x64_S512x64_1_0_0_1_n_n.lhsIdx_val_of_single rfl o q
theorem out_rhs0 (o : S512x64.Idx) (q : dot_S512x2048_S2048x64_S512x64_1_0_0_1_n_n.contr.Idx) :
    (dot_S512x2048_S2048x64_S512x64_1_0_0_1_n_n.rhsIdx o q 0).val = (q ⟨0, by decide⟩).val :=
  dot_S512x2048_S2048x64_S512x64_1_0_0_1_n_n.rhsIdx_val_of_single rfl o q
theorem out_rhs1 (o : S512x64.Idx) (q : dot_S512x2048_S2048x64_S512x64_1_0_0_1_n_n.contr.Idx) :
    (dot_S512x2048_S2048x64_S512x64_1_0_0_1_n_n.rhsIdx o q 1).val = (o 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output tile at (i, d): the sum over the key index k of the weight at (i, k) times the value at (k, d). -/
theorem out_apply (a : FVec Ideal S512x2048 .bf16) (b : FVec Ideal S2048x64 .bf16) (r : Fin 512) (c : Fin 64) :
    matmul dot_S512x2048_S2048x64_S512x64_1_0_0_1_n_n none a b (constant (F := Ideal) S512x64 .f32 0x00000000#32) (ix2 r c)
      = ∑ k : Fin 2048, a (ix2 r k) * b (ix2 k c) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k := funext fun x => Fin.ext (by
    match x with
    | ⟨0, _⟩ => exact out_lhs0 _ _
    | ⟨1, _⟩ => exact (out_lhs1 _ _).trans hk)
  have er : dot_S512x2048_S2048x64_S512x64_1_0_0_1_n_n.rhsIdx (ix2 r c) ((contrEquiv1 dot_S512x2048_S2048x64_S512x64_1_0_0_1_n_n 2048 rfl rfl).symm k) = ix2 k c := funext fun x => Fin.ext (by
    match x with
    | ⟨0, _⟩ => exact (out_rhs0 _ _).trans hk
    | ⟨1, _⟩ => exact out_rhs1 _ _)
  rw [el, er]

end Cert.KernelIdeal.Dots

end
-- ==== Proof.AttnRow.lean ====
/-
  One row of scaled dot-product attention, written twice over the extended reals, and the proof that the two
  arrangements agree when every entry is a real number.

  A query row q (over the feature index d), the keys k (over the key index j and d), one column v of the values
  (over j) and a scale c give the scores, their maximum over j, the weights exp (score - maximum), and the output.

  * First arrangement: the scale multiplies q before the contraction, s j = Σ_d (q d · c) · k j d, and the
    weighted sum of v is divided ONCE by the sum of the weights: (Σ_j p j · v j) / (Σ_j p j).
  * Second arrangement: the scale multiplies the contraction, s j = (Σ_d q d · k j d) · c, the maximum is taken
    once more against -∞, each weight is divided by 0 + Σ_j p j, and the quotients are contracted with v:
    Σ_j (p j / (0 + Σ p)) · v j.

  On real entries both scores are the same real (a factor moves across a finite sum of reals), the maximum is one
  of the scores (so it is real, and the maximum against -∞ changes nothing), every weight is a positive real, their
  sum L is a positive real, and division by L is multiplication by the real 1 / L, which moves across the finite
  sum: both outputs are the real (Σ_j p j · v j) / L.
-/
import Idealize.ShloMosaic.PureOps.Ideal

noncomputable section

open scoped BigOperators

namespace Cert.AttnRow

open Idealize.ShloMosaic

variable {ι δ : Type} [Fintype ι] [Fintype δ]

/-- The inclusion of the reals in the extended reals carries a finite sum to the sum of the images. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scores with the scale folded into the query row. -/
def scoreK (c : EReal) (q : δ → EReal) (k : ι → δ → EReal) : ι → EReal := fun j => ∑ d, (q d * c) * k j d

/-- The scores with the scale applied to the contraction. -/
def scoreR (c : EReal) (q : δ → EReal) (k : ι → δ → EReal) : ι → EReal := fun j => (∑ d, q d * k j d) * c

/-- The maximum of a row, folded from -∞. -/
def top (s : ι → EReal) : EReal := Finset.univ.fold max ⊥ s

/-- The unnormalized weights: exp (score - m). -/
def wt (s : ι → EReal) (m : EReal) : ι → EReal := fun j => Ideal.exp (s j - m)

/-- First arrangement: the weighted sum divided once by the sum of the weights. -/
def rowK (c : EReal) (q : δ → EReal) (k : ι → δ → EReal) (v : ι → EReal) : EReal :=
  Ideal.div (∑ j, wt (scoreK c q k) (top (scoreK c q k)) j * v j) (∑ j, wt (scoreK c q k) (top (scoreK c q k)) j)

/-- Second arrangement: each weight divided by 0 + the sum of the weights, then contracted with the values. -/
def rowR (c : EReal) (q : δ → EReal) (k : ι → δ → EReal) (v : ι → EReal) : EReal :=
  ∑ j, Ideal.div (wt (scoreR c q k) (max ⊥ (top (scoreR c q k))) j)
      (0 + ∑ j', wt (scoreR c q k) (max ⊥ (top (scoreR c q k))) j') * v j

/-- The maximum, folded from -∞, of finitely many reals over a nonempty set is one of them. -/
theorem exists_fold_max {α : Type} (s : Finset α) (hs : s.Nonempty) (f : α → ℝ) :
    ∃ j, s.fold max ⊥ (fun j => (f j : EReal)) = (f j : EReal) := by
  induction hs using Finset.Nonempty.cons_induction with
  | singleton a => exact ⟨a, by rw [Finset.fold_singleton]; exact max_eq_left bot_le⟩
  | cons a s ha hs ih =>
    obtain ⟨j, hj⟩ := ih
    rw [Finset.fold_cons, hj]
    rcases le_total (f a) (f j) with h | h
    · exact ⟨j, max_eq_right (EReal.coe_le_coe_iff.2 h)⟩
    · exact ⟨a, max_eq_left (EReal.coe_le_coe_iff.2 h)⟩

/-- On real entries the two arrangements agree. -/
theorem rowK_eq_rowR_coe [Nonempty ι] (c' : ℝ) (q' : δ → ℝ) (k' : ι → δ → ℝ) (v' : ι → ℝ) :
    rowK (c' : EReal) (fun d => (q' d : EReal)) (fun j d => (k' j d : EReal)) (fun j => (v' j : EReal))
      = rowR (c' : EReal) (fun d => (q' d : EReal)) (fun j d => (k' j d : EReal)) (fun j => (v' j : EReal)) := by
  -- both scores are one real row
  have hK : scoreK (c' : EReal) (fun d => (q' d : EReal)) (fun j d => (k' j d : EReal))
      = fun j => (((∑ d, q' d * k' j d) * c' : ℝ) : EReal) := by
    funext j
    unfold scoreK
    rw [Finset.sum_mul, coe_sum]
    refine Finset.sum_congr rfl fun d _ => ?_
    rw [mul_right_comm, EReal.coe_mul, EReal.coe_mul]
  have hR : scoreR (c' : EReal) (fun d => (q' d : EReal)) (fun j d => (k' j d : EReal))
      = fun j => (((∑ d, q' d * k' j d) * c' : ℝ) : EReal) := by
    funext j
    unfold scoreR
    rw [EReal.coe_mul, coe_sum]
    refine congrArg (· * (c' : EReal)) (Finset.sum_congr rfl fun d _ => ?_)
    rw [EReal.coe_mul]
  unfold rowK rowR
  rw [hK, hR]
  -- the maximum is one of the scores
  obtain ⟨j₀, hj₀⟩ := exists_fold_max (Finset.univ : Finset ι) Finset.univ_nonempty fun j => (∑ d, q' d * k' j d) * c'
  have htop : top (fun j => (((∑ d, q' d * k' j d) * c' : ℝ) : EReal)) = (((∑ d, q' d * k' j₀ d) * c' : ℝ) : EReal) := hj₀
  rw [htop, max_eq_right bot_le]
  generalize (∑ d, q' d * k' j₀ d) * c' = m'
  -- the weights are positive reals
  have hwt : wt (fun j => (((∑ d, q' d * k' j d) * c' : ℝ) : EReal)) (m' : EReal)
      = fun j => ((Real.exp ((∑ d, q' d * k' j d) * c' - m') : ℝ) : EReal) := by
    funext j
    unfold wt
    rw [← EReal.coe_sub, Ideal.exp_coe]
  rw [hwt]
  generalize hp : (fun j => Real.exp ((∑ d, q' d * k' j d) * c' - m')) = p'
  have hpos : ∀ j, 0 < p' j := fun j => by rw [← hp]; exact Real.exp_pos _
  have hp' : (fun j => ((Real.exp ((∑ d, q' d * k' j d) * c' - m') : ℝ) : EReal)) = fun j => (p' j : EReal) := by
    rw [← hp]
  rw [hp']
  -- their sum is a positive real
  have hL : (0 : ℝ) < ∑ j, p' j := Finset.sum_pos (fun j _ => hpos j) Finset.univ_nonempty
  have hLe : (∑ j, (p' j : EReal)) = ((∑ j, p' j : ℝ) : EReal) := (coe_sum _ _).symm
  rw [hLe, zero_add]
  have hnum : (∑ j, (p' j : EReal) * (v' j : EReal)) = ((∑ j, p' j * v' j : ℝ) : EReal) := by
    rw [coe_sum]; exact Finset.sum_congr rfl fun j _ => (EReal.coe_mul _ _).symm
  rw [hnum, Ideal.div_coe hL.ne']
  have hterm : ∀ j, Ideal.div (p' j : EReal) ((∑ j, p' j : ℝ) : EReal) * (v' j : EReal)
      = ((p' j * (1 / ∑ j, p' j) * v' j : ℝ) : EReal) := fun j => by
    rw [Ideal.div_coe hL.ne', ← EReal.coe_mul, ← EReal.coe_mul]
  rw [Finset.sum_congr rfl fun j _ => hterm j, ← coe_sum, ← EReal.coe_mul, Finset.sum_mul]
  exact congrArg _ (Finset.sum_congr rfl fun j _ => mul_right_comm _ _ _)

/-- The same, with the entries given as extended reals known to be real. -/
theorem rowK_eq_rowR [Nonempty ι] {c : EReal} {q : δ → EReal} {k : ι → δ → EReal} {v : ι → EReal}
    (hc : ∃ r : ℝ, c = r) (hq : ∀ d, ∃ r : ℝ, q d = r) (hk : ∀ j d, ∃ r : ℝ, k j d = r) (hv : ∀ j, ∃ r : ℝ, v j = r) :
    rowK c q k v = rowR c q k v := by
  obtain ⟨c', rfl⟩ := hc
  choose q' hq' using hq
  choose k' hk' using hk
  choose v' hv' using hv
  obtain rfl : q = fun d => (q' d : EReal) := funext hq'
  obtain rfl : k = fun j d => (k' j d : EReal) := funext fun j => funext fun d => hk' j d
  obtain rfl : v = fun j => (v' j : EReal) := funext hv'
  exact rowK_eq_rowR_coe c' q' k' v'

end Cert.AttnRow

end
-- ==== Proof.AttnSpec.lean ====
/-
  The two programs' results as whole-array functions of the argument arrays, over the literal shapes
  (batch 8, sequence 2048, model width 512, head width 64).

  * proj x w b: the dense projection x · w + b, at (batch, position, feature) the sum over the model index of the
    input times the weight, plus the bias at the feature.
  * attnK c q k v: every entry (batch, i, d) by the first arrangement of an attention row (scale folded into the
    query, one division after the contraction with the values) of query row i, the batch's keys and column d of the
    batch's values; attnR c q k v: the same entry by the second arrangement (scaled contraction, softmax weights
    normalized before the contraction with the values).

  The two arrangements agree wherever q, k and v are real-valued and the scale is real; a projection of real-valued
  arrays is real-valued.
-/
import Idealize.ShloMosaic.Lib.ValueIdx
import proofs.«108945_j78099685310952_2_alg».proof.Proof.AttnRow

noncomputable section

open scoped BigOperators

namespace Cert.AttnSpec

open Idealize.ShloMosaic Idealize.ShloMosaic.ValueIdx Cert.AttnRow

/-- An array of extended reals over a literal shape. -/
abbrev Arr3 (n0 n1 n2 : Nat) : Type := (⟨3, ![n0, n1, n2]⟩ : Shape).Idx → EReal
abbrev Arr2 (n0 n1 : Nat) : Type := (⟨2, ![n0, n1]⟩ : Shape).Idx → EReal
abbrev Arr1 (n0 : Nat) : Type := (⟨1, ![n0]⟩ : Shape).Idx → EReal

/-- One entry of a dense projection. -/
def projAt (x : Arr3 8 2048 512) (w : Arr2 512 64) (b : Arr1 64) (n : Fin 8) (s : Fin 2048) (d : Fin 64) : EReal :=
  (∑ k : Fin 512, x (ix3 n s k) * w (ix2 k d)) + b (ix1 d)

/-- The dense projection x · w + b. -/
def proj (x : Arr3 8 2048 512) (w : Arr2 512 64) (b : Arr1 64) : Arr3 8 2048 64 :=
  fun o => projAt x w b (o 0) (o 1) (o 2)

theorem proj_apply (x : Arr3 8 2048 512) (w : Arr2 512 64) (b : Arr1 64) (n : Fin 8) (s : Fin 2048) (d : Fin 64) :
    proj x w b (ix3 n s d) = projAt x w b n s d := rfl

/-- One entry of the attention output, first arrangement. -/
def attnKAt (c : EReal) (q k v : Arr3 8 2048 64) (n : Fin 8) (i : Fin 2048) (d : Fin 64) : EReal :=
  rowK c (fun d' : Fin 64 => q (ix3 n i d')) (fun (j : Fin 2048) (d' : Fin 64) => k (ix3 n j d')) (fun j : Fin 2048 => v (ix3 n j d))

/-- One entry of the attention output, second arrangement. -/
def attnRAt (c : EReal) (q k v : Arr3 8 2048 64) (n : Fin 8) (i : Fin 2048) (d : Fin 64) : EReal :=
  rowR c (fun d' : Fin 64 => q (ix3 n i d')) (fun (j : Fin 2048) (d' : Fin 64) => k (ix3 n j d')) (fun j : Fin 2048 => v (ix3 n j d))

/-- The attention output, first arrangement. -/
def attnK (c : EReal) (q k v : Arr3 8 2048 64) : Arr3 8 2048 64 := fun o => attnKAt c q k v (o 0) (o 1) (o 2)

/-- The attention output, second arrangement. -/
def attnR (c : EReal) (q k v : Arr3 8 2048 64) : Arr3 8 2048 64 := fun o => attnRAt c q k v (o 0) (o 1) (o 2)

theorem attnK_apply (c : EReal) (q k v : Arr3 8 2048 64) (n : Fin 8) (i : Fin 2048) (d : Fin 64) :
    attnK c q k v (ix3 n i d) = attnKAt c q k v n i d := rfl

theorem attnR_apply (c : EReal) (q k v : Arr3 8 2048 64) (n : Fin 8) (i : Fin 2048) (d : Fin 64) :
    attnR c q k v (ix3 n i d) = attnRAt c q k v n i d := rfl

/-- An array is real-valued when every entry is a real number. -/
def Real3 {n0 n1 n2 : Nat} (x : Arr3 n0 n1 n2) : Prop := ∀ i, ∃ r : ℝ, x i = r
def Real2 {n0 n1 : Nat} (x : Arr2 n0 n1) : Prop := ∀ i, ∃ r : ℝ, x i = r
def Real1 {n0 : Nat} (x : Arr1 n0) : Prop := ∀ i, ∃ r : ℝ, x i = r

/-- A projection of real-valued arrays is real-valued: a finite sum of products of reals plus a real. -/
theorem proj_real {x : Arr3 8 2048 512} {w : Arr2 512 64} {b : Arr1 64} (hx : Real3 x) (hw : Real2 w) (hb : Real1 b) :
    Real3 (proj x w b) := by
  intro o
  choose x' hx' using hx
  choose w' hw' using hw
  choose b' hb' using hb
  refine ⟨(∑ k : Fin 512, x' (ix3 (o 0) (o 1) k) * w' (ix2 k (o 2))) + b' (ix1 (o 2)), ?_⟩
  unfold proj projAt
  rw [EReal.coe_add, coe_sum, hb']
  refine congrArg (· + (b' (ix1 (o 2)) : EReal)) (Finset.sum_congr rfl fun k _ => ?_)
  rw [hx', hw', EReal.coe_mul]

/-- On real-valued queries, keys and values and a real scale the two arrangements give one array. -/
theorem attnK_eq_attnR {c : EReal} {q k v : Arr3 8 2048 64} (hc : ∃ r : ℝ, c = r) (hq : Real3 q) (hk : Real3 k) (hv : Real3 v) :
    attnK c q k v = attnR c q k v := by
  funext o
  unfold attnK attnR attnKAt attnRAt
  exact rowK_eq_rowR hc (fun d' => hq _) (fun j d' => hk _) (fun j => hv _)

end Cert.AttnSpec

end
-- ==== Proof.ProjTile.lean ====
/-
  What one grid point of the projection region stores, read at an entry of each of its three [1, 1024, 64]
  output blocks: the sum over the model index of the input block's row times the weight matrix's column, plus the
  bias at the column. (The roundings to bf16 on the way in and out are the identity on extended reals.) The three
  outputs are the same expression of three different triples of loaded blocks.
-/
import proofs.«108945_j78099685310952_2_alg».proof.Proof.Gen.KernelIdeal.Skeleton
import proofs.«108945_j78099685310952_2_alg».proof.Proof.KernelDots
import proofs.«108945_j78099685310952_2_alg».proof.Proof.AttnSpec
import Idealize.ShloMosaic.Lib.ValueLayout
import Idealize.ShloMosaic.Lib.Pipeline.Value

noncomputable section

open scoped BigOperators

namespace Cert.KernelIdeal.ProjTile

open Cert.KernelIdeal Cert.KernelIdeal.Gen
open Idealize.ShloMosaic Idealize.ShloMosaic.ValueIdx Cert.KernelIdeal.Dots Cert.AttnSpec

/-- The affine map of one input block: rows times the weight matrix, plus the bias along every row. -/
def lin (x : FVec Ideal S1x1024x512 .f32) (w : FVec Ideal S512x64 .f32) (b : FVec Ideal S64 .f32) : FVec Ideal S1024x64 .f32 :=
  addf
    (matmul dot_S1024x512_S512x64_S1024x64_1_0_0_1_n_n none
      (truncf .bf16 (shapeCast S1024x512 x shapeCasts_S1x1024x512_S1024x512) bitsLt_bf16_f32) (truncf .bf16 w bitsLt_bf16_f32)
      (constant (F := Ideal) S1024x64 .f32 0x00000000#32))
    (broadcastTo S1024x64 (shapeCast S1x64 b shapeCasts_S64_S1x64) broadcasts_S1x64_S1024x64)

/-- What is stored: that map, with a leading unit axis. -/
def stored (x : FVec Ideal S1x1024x512 .f32) (w : FVec Ideal S512x64 .f32) (b : FVec Ideal S64 .f32) : FVec Ideal S1x1024x64 .bf16 :=
  shapeCast S1x1024x64 (truncf .bf16 (lin x w b) bitsLt_bf16_f32) shapeCasts_S1024x64_S1x1024x64

theorem payQ_eq (x : FVec Ideal S1x1024x512 .f32) (w : FVec Ideal S512x64 .f32) (b : FVec Ideal S64 .f32) :
    k0_pay5 (F := Ideal) x w b = stored x w b := rfl
theorem payK_eq (x : FVec Ideal S1x1024x512 .f32) (w : FVec Ideal S512x64 .f32) (b : FVec Ideal S64 .f32) :
    k0_pay1 (F := Ideal) (k0_pay3 (F := Ideal) x w b) = stored x w b := rfl
theorem payV_eq (x : FVec Ideal S1x1024x512 .f32) (w : FVec Ideal S512x64 .f32) (b : FVec Ideal S64 .f32) :
    k0_pay2 (F := Ideal) (k0_pay4 (F := Ideal) x w b) = stored x w b := rfl

/-- The affine map at (r, c). -/
theorem lin_apply (x : FVec Ideal S1x1024x512 .f32) (w : FVec Ideal S512x64 .f32) (b : FVec Ideal S64 .f32) (r : Fin 1024) (c : Fin 64) :
    lin x w b (ix2 r c) = (∑ k : Fin 512, x (ix3 (0 : Fin 1) r k) * w (ix2 k c)) + b (ix1 c) := by
  unfold lin
  show matmul dot_S1024x512_S512x64_S1024x64_1_0_0_1_n_n none
        (truncf .bf16 (shapeCast S1024x512 x shapeCasts_S1x1024x512_S1024x512) bitsLt_bf16_f32) (truncf .bf16 w bitsLt_bf16_f32)
        (constant (F := Ideal) S1024x64 .f32 0x00000000#32) (ix2 r c)
      + broadcastTo S1024x64 (shapeCast S1x64 b shapeCasts_S64_S1x64) broadcasts_S1x64_S1024x64 (ix2 r c) = _
  rw [Dots.proj_apply, broadcastTo_1b_ab_apply, shapeCast_a_1a_apply]
  refine congrArg (· + b (ix1 c)) (Finset.sum_congr rfl fun k _ => ?_)
  show shapeCast S1024x512 x shapeCasts_S1x1024x512_S1024x512 (ix2 r k) * w (ix2 k c) = _
  rw [shapeCast_1ab_ab_apply]

/-- The stored block at (u, r, c). -/
theorem stored_apply (x : FVec Ideal S1x1024x512 .f32) (w : FVec Ideal S512x64 .f32) (b : FVec Ideal S64 .f32) (u : Fin 1) (r : Fin 1024) (c : Fin 64) :
    stored x w b (ix3 u r c) = (∑ k : Fin 512, x (ix3 (0 : Fin 1) r k) * w (ix2 k c)) + b (ix1 c) := by
  unfold stored
  rw [shapeCast_ab_1ab_apply]
  exact lin_apply x w b r c

/-- A stored block is a block of the whole projection: if the loaded input block's row is a row of the array x
    at the position the stored entry lands on, and the loaded weight column and bias entry are those of w and b at
    the feature it lands on, the stored entry is the projection's entry there. -/
theorem stored_at (x0 : FVec Ideal S1x1024x512 .f32) (w0 : FVec Ideal S512x64 .f32) (b0 : FVec Ideal S64 .f32)
    (X : Arr3 8 2048 512) (W : Arr2 512 64) (B : Arr1 64) (y : S1x1024x64.Idx) (o : S8x2048x64.Idx)
    (hx : ∀ k : Fin 512, x0 (ix3 (0 : Fin 1) (y 1) k) = X (ix3 (o 0) (o 1) k))
    (hw : ∀ k : Fin 512, w0 (ix2 k (y 2)) = W (ix2 k (o 2)))
    (hb : b0 (ix1 (y 2)) = B (ix1 (o 2))) :
    stored x0 w0 b0 y = proj X W B o := by
  refine ((congrArg (stored x0 w0 b0) (eq_ix3 y)).trans (stored_apply x0 w0 b0 (y 0) (y 1) (y 2))).trans ?_
  unfold proj projAt
  rw [hb]
  exact congrArg (· + B (ix1 (o 2))) (Finset.sum_congr rfl fun k _ => by rw [hx, hw])

end Cert.KernelIdeal.ProjTile

end
-- ==== Proof.ProjValue.lean ====
/-
  The projection region, from blocks to arrays.

  Its grid is 8 batches by 2 position tiles of 1024 rows. At each point the body stores, in each of its three
  output blocks [1, 1024, 64], the affine map of the point's input block by the whole weight matrix and bias. Each
  stored block is the corresponding block of ONE whole-array function, the dense projection x · w + b of the
  arrays the region is entered with; the 16 blocks tile the [8, 2048, 64] output; so after the region each output
  array IS that projection. Stated for any contents V the region is entered with.
-/
import proofs.«108945_j78099685310952_2_alg».proof.Proof.Gen.KernelIdeal.Frame
import proofs.«108945_j78099685310952_2_alg».proof.Proof.ProjTile
import proofs.«108945_j78099685310952_2_alg».proof.Proof.AttnSpec
import Idealize.ShloMosaic.Lib.Pipeline.Value

set_option maxRecDepth 16384

noncomputable section

namespace Cert.KernelIdeal.ProjValue

open Cert.KernelIdeal Cert.KernelIdeal.Gen
open Idealize.ShloMosaic Idealize.ShloMosaic.TcCoe Idealize.SL.Sem Idealize.ShloMosaic.ValueIdx
open Idealize.ShloMosaic.Pipeline (Dat)
open Cert.AttnSpec Cert.KernelIdeal.ProjTile

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Output window 9: the query projection -/

/-- The printed index maps, decided over the grid's 16 points: the input block moves with the output block on the
    batch and position axes, the weight and bias windows stay on their one block, and no window moves on its last axis. -/
theorem idx_facts9 : ∀ t : Fin cfg0.N,
    win0_9.index t (2 : Fin 3) = 0
    ∧ win0_0.index t (0 : Fin 3) = win0_9.index t (0 : Fin 3) ∧ win0_0.index t (1 : Fin 3) = win0_9.index t (1 : Fin 3)
    ∧ win0_0.index t (2 : Fin 3) = 0
    ∧ win0_3.index t (0 : Fin 2) = 0 ∧ win0_3.index t (1 : Fin 2) = 0 ∧ win0_4.index t (0 : Fin 1) = 0 :=
  (by decide +kernel : ∀ t : Fin grid0.N, _)

/-- Every (batch, position tile) pair is some point's output block. -/
theorem idx_onto9 : ∀ (q0 : Fin 8) (q1 : Fin 2), ∃ t : Fin cfg0.N, win0_9.index t = ![q0.val, q1.val, 0] :=
  (by decide +kernel : ∀ (q0 : Fin 8) (q1 : Fin 2), ∃ t : Fin grid0.N, win0_9.index t = ![q0.val, q1.val, 0])

/-- The input block at a point, read at (0, r, k), is the argument array at the entry the block's offsets put it. -/
theorem read_x0 (c : Dev nD) (t : Fin cfg0.N) (r : Fin 1024) (k : Fin 512) (i : S8x2048x512.Idx)
    (h0 : win0_0.index t (0 : Fin 3) * 1 + 1 * 0 = (i 0).val)
    (h1 : win0_0.index t (1 : Fin 3) * 1024 + 1 * r.val = (i 1).val)
    (h2 : win0_0.index t (2 : Fin 3) * 512 + 1 * k.val = (i 2).val) :
    (iblk0 V c 0 t : FVec Ideal S1x1024x512 .f32) (ix3 (0 : Fin 1) r k) = (V c main_arg0 : S8x2048x512.Idx → EReal) i := by
  unfold iblk0
  rw [View.read_apply]
  show V c main_arg0 _ = V c main_arg0 _
  refine congrArg (V c main_arg0) (funext fun a => Fin.ext ?_)
  match a with
  | ⟨0, _⟩ => exact h0
  | ⟨1, _⟩ => exact h1
  | ⟨2, _⟩ => exact h2

/-- The weight block at a point is the weight array. -/
theorem read_w3 (c : Dev nD) (t : Fin cfg0.N) (k : Fin 512) (d : Fin 64) (i : S512x64.Idx)
    (h0 : win0_3.index t (0 : Fin 2) * 512 + 1 * k.val = (i 0).val)
    (h1 : win0_3.index t (1 : Fin 2) * 64 + 1 * d.val = (i 1).val) :
    (iblk0 V c 3 t : FVec Ideal S512x64 .f32) (ix2 k d) = (V c main_arg3 : S512x64.Idx → EReal) i := by
  unfold iblk0
  rw [View.read_apply]
  show V c main_arg3 _ = V c main_arg3 _
  refine congrArg (V c main_arg3) (funext fun a => Fin.ext ?_)
  match a with
  | ⟨0, _⟩ => exact h0
  | ⟨1, _⟩ => exact h1

/-- The bias block at a point is the bias array. -/
theorem read_b4 (c : Dev nD) (t : Fin cfg0.N) (d : Fin 64) (i : S64.Idx)
    (h0 : win0_4.index t (0 : Fin 1) * 64 + 1 * d.val = (i 0).val) :
    (iblk0 V c 4 t : FVec Ideal S64 .f32) (ix1 d) = (V c main_arg4 : S64.Idx → EReal) i := by
  unfold iblk0
  rw [View.read_apply]
  show V c main_arg4 _ = V c main_arg4 _
  refine congrArg (V c main_arg4) (funext fun a => Fin.ext ?_)
  match a with
  | ⟨0, _⟩ => exact h0

/-- What point t writes back is block t of the whole projection of the arrays as the region finds them. -/
theorem flushed9_eq (c : Dev nD) (t : Fin cfg0.N) :
    (dat0 V c).flushed 9 t
      = ((cfg0.win 9).blk t).view.read (Elt Ideal) (proj (V c main_arg0) (V c main_arg3) (V c main_arg4)) := by
  show (cfg0.win 9).cut (grid0.coords t) ((dat0 V c).after 9 t) = _
  rw [after0_9]
  unfold out0_9
  rw [View.canon_unit_zero hz3]
  simp only [View.ld_unit_zero (S := S1x1024x512) hz3, View.ld_unit_zero (S := S512x64) hz2, View.ld_unit_zero (S := S64) hz1]
  rw [payQ_eq]
  obtain ⟨eo2, ei0, ei1, ei2, ew0, ew1, eb0⟩ := idx_facts9 t
  funext y
  show stored (iblk0 V c 0 t) (iblk0 V c 3 t) (iblk0 V c 4 t) y
      = proj (V c main_arg0) (V c main_arg3) (V c main_arg4) (((cfg0.win 9).blk t).view.emb y)
  have hy0 : (y 0).val < 1 := (y 0).isLt
  refine stored_at (iblk0 V c 0 t) (iblk0 V c 3 t) (iblk0 V c 4 t) (V c main_arg0) (V c main_arg3) (V c main_arg4) y
    (((cfg0.win 9).blk t).view.emb y) (fun k => ?_) (fun k => ?_) ?_
  · refine read_x0 V c t (y 1) k _ ?_ ?_ ?_
    · show win0_0.index t (0 : Fin 3) * 1 + 1 * 0 = win0_9.index t (0 : Fin 3) * 1 + 1 * (y 0).val
      omega
    · show win0_0.index t (1 : Fin 3) * 1024 + 1 * (y 1).val = win0_9.index t (1 : Fin 3) * 1024 + 1 * (y 1).val
      omega
    · show win0_0.index t (2 : Fin 3) * 512 + 1 * k.val = k.val
      omega
  · refine read_w3 V c t k (y 2) _ ?_ ?_
    · show win0_3.index t (0 : Fin 2) * 512 + 1 * k.val = k.val
      omega
    · show win0_3.index t (1 : Fin 2) * 64 + 1 * (y 2).val = win0_9.index t (2 : Fin 3) * 64 + 1 * (y 2).val
      omega
  · refine read_b4 V c t (y 2) _ ?_
    show win0_4.index t (0 : Fin 1) * 64 + 1 * (y 2).val = win0_9.index t (2 : Fin 3) * 64 + 1 * (y 2).val
    omega

/-- An index of the array is in point t's block iff each coordinate is in the block's range on its axis. -/
theorem mem_blk9 (t : Fin cfg0.N) (i : S8x2048x64.Idx) :
    i ∈ ((cfg0.win 9).blk t).view.set ↔ ∀ a : Fin 3, win0_9.index t a * S1x1024x64.size a ≤ (i a).val
      ∧ (i a).val < win0_9.index t a * S1x1024x64.size a + S1x1024x64.size a := by
  show i ∈ ((View.whole main_v0_0).slice (win0_9.rect t)).set ↔ _
  rw [View.set_slice_whole, Rect.mem_set_unit]
  exact Iff.rfl

/-- The blocks tile the array: the entry at (n, s, d) lies in the block of batch n and position tile s / 1024. -/
theorem cover9 (i : S8x2048x64.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 64 := (i 2).isLt
  obtain ⟨t, ht⟩ := idx_onto9 ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  refine ⟨t, flush0_9 t, ?_⟩
  rw [mem_blk9]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 1024 ≤ (i 1).val ∧ (i 1).val < win0_9.index t (1 : Fin 3) * 1024 + 1024
    omega
  | ⟨2, _⟩ =>
    show win0_9.index t (2 : Fin 3) * 64 ≤ (i 2).val ∧ (i 2).val < win0_9.index t (2 : Fin 3) * 64 + 64
    omega

/-- After the region the query array is the whole projection of the arrays the region was entered with. -/
theorem final9 (c : Dev nD) :
    (dat0 V c).arrAt 9 cfg0.N = proj (V c main_arg0) (V c main_arg3) (V c main_arg4) :=
  (dat0 V c).arrAt_eq_of_cover 9 _ (fun t _ => flushed9_eq V c t) cover9

/-! ## Output window 10: the key projection -/

/-- The printed index maps, decided over the grid's 16 points: the input block moves with the output block on the
    batch and position axes, the weight and bias windows stay on their one block, and no window moves on its last axis. -/
theorem idx_facts10 : ∀ t : Fin cfg0.N,
    win0_10.index t (2 : Fin 3) = 0
    ∧ win0_1.index t (0 : Fin 3) = win0_10.index t (0 : Fin 3) ∧ win0_1.index t (1 : Fin 3) = win0_10.index t (1 : Fin 3)
    ∧ win0_1.index t (2 : Fin 3) = 0
    ∧ win0_5.index t (0 : Fin 2) = 0 ∧ win0_5.index t (1 : Fin 2) = 0 ∧ win0_6.index t (0 : Fin 1) = 0 :=
  (by decide +kernel : ∀ t : Fin grid0.N, _)

/-- Every (batch, position tile) pair is some point's output block. -/
theorem idx_onto10 : ∀ (q0 : Fin 8) (q1 : Fin 2), ∃ t : Fin cfg0.N, win0_10.index t = ![q0.val, q1.val, 0] :=
  (by decide +kernel : ∀ (q0 : Fin 8) (q1 : Fin 2), ∃ t : Fin grid0.N, win0_10.index t = ![q0.val, q1.val, 0])

/-- The input block at a point, read at (0, r, k), is the argument array at the entry the block's offsets put it. -/
theorem read_x1 (c : Dev nD) (t : Fin cfg0.N) (r : Fin 1024) (k : Fin 512) (i : S8x2048x512.Idx)
    (h0 : win0_1.index t (0 : Fin 3) * 1 + 1 * 0 = (i 0).val)
    (h1 : win0_1.index t (1 : Fin 3) * 1024 + 1 * r.val = (i 1).val)
    (h2 : win0_1.index t (2 : Fin 3) * 512 + 1 * k.val = (i 2).val) :
    (iblk0 V c 1 t : FVec Ideal S1x1024x512 .f32) (ix3 (0 : Fin 1) r k) = (V c main_arg1 : S8x2048x512.Idx → EReal) i := by
  unfold iblk0
  rw [View.read_apply]
  show V c main_arg1 _ = V c main_arg1 _
  refine congrArg (V c main_arg1) (funext fun a => Fin.ext ?_)
  match a with
  | ⟨0, _⟩ => exact h0
  | ⟨1, _⟩ => exact h1
  | ⟨2, _⟩ => exact h2

/-- The weight block at a point is the weight array. -/
theorem read_w5 (c : Dev nD) (t : Fin cfg0.N) (k : Fin 512) (d : Fin 64) (i : S512x64.Idx)
    (h0 : win0_5.index t (0 : Fin 2) * 512 + 1 * k.val = (i 0).val)
    (h1 : win0_5.index t (1 : Fin 2) * 64 + 1 * d.val = (i 1).val) :
    (iblk0 V c 5 t : FVec Ideal S512x64 .f32) (ix2 k d) = (V c main_arg5 : S512x64.Idx → EReal) i := by
  unfold iblk0
  rw [View.read_apply]
  show V c main_arg5 _ = V c main_arg5 _
  refine congrArg (V c main_arg5) (funext fun a => Fin.ext ?_)
  match a with
  | ⟨0, _⟩ => exact h0
  | ⟨1, _⟩ => exact h1

/-- The bias block at a point is the bias array. -/
theorem read_b6 (c : Dev nD) (t : Fin cfg0.N) (d : Fin 64) (i : S64.Idx)
    (h0 : win0_6.index t (0 : Fin 1) * 64 + 1 * d.val = (i 0).val) :
    (iblk0 V c 6 t : FVec Ideal S64 .f32) (ix1 d) = (V c main_arg6 : S64.Idx → EReal) i := by
  unfold iblk0
  rw [View.read_apply]
  show V c main_arg6 _ = V c main_arg6 _
  refine congrArg (V c main_arg6) (funext fun a => Fin.ext ?_)
  match a with
  | ⟨0, _⟩ => exact h0

/-- What point t writes back is block t of the whole projection of the arrays as the region finds them. -/
theorem flushed10_eq (c : Dev nD) (t : Fin cfg0.N) :
    (dat0 V c).flushed 10 t
      = ((cfg0.win 10).blk t).view.read (Elt Ideal) (proj (V c main_arg1) (V c main_arg5) (V c main_arg6)) := by
  show (cfg0.win 10).cut (grid0.coords t) ((dat0 V c).after 10 t) = _
  rw [after0_10]
  unfold out0_10
  rw [View.canon_unit_zero hz3]
  simp only [View.ld_unit_zero (S := S1x1024x512) hz3, View.ld_unit_zero (S := S512x64) hz2, View.ld_unit_zero (S := S64) hz1]
  rw [payK_eq]
  obtain ⟨eo2, ei0, ei1, ei2, ew0, ew1, eb0⟩ := idx_facts10 t
  funext y
  show stored (iblk0 V c 1 t) (iblk0 V c 5 t) (iblk0 V c 6 t) y
      = proj (V c main_arg1) (V c main_arg5) (V c main_arg6) (((cfg0.win 10).blk t).view.emb y)
  have hy0 : (y 0).val < 1 := (y 0).isLt
  refine stored_at (iblk0 V c 1 t) (iblk0 V c 5 t) (iblk0 V c 6 t) (V c main_arg1) (V c main_arg5) (V c main_arg6) y
    (((cfg0.win 10).blk t).view.emb y) (fun k => ?_) (fun k => ?_) ?_
  · refine read_x1 V c t (y 1) k _ ?_ ?_ ?_
    · show win0_1.index t (0 : Fin 3) * 1 + 1 * 0 = win0_10.index t (0 : Fin 3) * 1 + 1 * (y 0).val
      omega
    · show win0_1.index t (1 : Fin 3) * 1024 + 1 * (y 1).val = win0_10.index t (1 : Fin 3) * 1024 + 1 * (y 1).val
      omega
    · show win0_1.index t (2 : Fin 3) * 512 + 1 * k.val = k.val
      omega
  · refine read_w5 V c t k (y 2) _ ?_ ?_
    · show win0_5.index t (0 : Fin 2) * 512 + 1 * k.val = k.val
      omega
    · show win0_5.index t (1 : Fin 2) * 64 + 1 * (y 2).val = win0_10.index t (2 : Fin 3) * 64 + 1 * (y 2).val
      omega
  · refine read_b6 V c t (y 2) _ ?_
    show win0_6.index t (0 : Fin 1) * 64 + 1 * (y 2).val = win0_10.index t (2 : Fin 3) * 64 + 1 * (y 2).val
    omega

/-- An index of the array is in point t's block iff each coordinate is in the block's range on its axis. -/
theorem mem_blk10 (t : Fin cfg0.N) (i : S8x2048x64.Idx) :
    i ∈ ((cfg0.win 10).blk t).view.set ↔ ∀ a : Fin 3, win0_10.index t a * S1x1024x64.size a ≤ (i a).val
      ∧ (i a).val < win0_10.index t a * S1x1024x64.size a + S1x1024x64.size a := by
  show i ∈ ((View.whole main_v0_1).slice (win0_10.rect t)).set ↔ _
  rw [View.set_slice_whole, Rect.mem_set_unit]
  exact Iff.rfl

/-- The blocks tile the array: the entry at (n, s, d) lies in the block of batch n and position tile s / 1024. -/
theorem cover10 (i : S8x2048x64.Idx) :
    ∃ t : Fin cfg0.N, (cfg0.win 10).flush t = true ∧ i ∈ ((cfg0.win 10).blk t).view.set := by
  have hi0 : (i 0).val < 8 := (i 0).isLt
  have hi1 : (i 1).val < 2048 := (i 1).isLt
  have hi2 : (i 2).val < 64 := (i 2).isLt
  obtain ⟨t, ht⟩ := idx_onto10 ⟨(i 0).val, hi0⟩ ⟨(i 1).val / 1024, by omega⟩
  have q0 : win0_10.index t (0 : Fin 3) = (i 0).val := congrFun ht 0
  have q1 : win0_10.index t (1 : Fin 3) = (i 1).val / 1024 := congrFun ht 1
  have q2 : win0_10.index t (2 : Fin 3) = 0 := congrFun ht 2
  refine ⟨t, flush0_10 t, ?_⟩
  rw [mem_blk10]
  intro a
  match a with
  | ⟨0, _⟩ =>
    show win0_10.index t (0 : Fin 3) * 1 ≤ (i 0).val ∧ (i 0).val < win0_10.index t (0 : Fin 3) * 1 + 1
    omega
  | ⟨1, _⟩ =>
    show win0_10.index t (1 : Fin 3) * 1024 ≤ (i 1).val ∧ (i 1).val < win0_10.index t (1 : Fin 3) * 1024 + 1024
    omega
  | ⟨2, _⟩ =>
    show win0_10.index t (2 : Fin 3) * 64 ≤ (i 2).val ∧ (i 2).val < win0_10.index t (2 : Fin 3) * 64 + 64
    omega

/-- After the region the key array is the whole projection of the arrays the region was entered with. -/
theorem final10 (c : Dev nD) :
    (dat0 V c).arrAt 10 cfg0.N = proj (V c main_arg1) (V c main_arg5) (V c main_arg6) :=
  (dat0 V c).arrAt_eq_of_cover 10 _ (fun t _ => flushed10_eq V c t) cover10

/-! ## Output window 11: the value projection -/

/-- The printed index maps, decided over the grid's 16 points: the input block moves with the output block on the
    batch and position axes, the weight and bias windows stay on their one block, and no window moves on its last axis. -/
theorem idx_facts11 : ∀ t : Fin cfg0.N,
    win0_11.index t (2 : Fin 3) = 0
    ∧ win0_2.index t (0 : Fin 3) = win0_11.index t (0 : Fin 3) ∧ win0_2.index t (1 : Fin 3) = win0_11.index t (1 : Fin 3)
    ∧ win0_2.index t (2 : Fin 3) = 0
    ∧ win0_7.index t (0 : Fin 2) = 0 ∧ win0_7.index t (1 : Fin 2) = 0 ∧ win0_8.index t (0 : Fin 1) = 0 :=
  (by decide +kernel : ∀ t : Fin grid0.N, _)

/-- Every (batch, position tile) pair is some point's output block. -/
theorem idx_onto11 : ∀ (q0 : Fin 8) (q1 : Fin 2), ∃ t : Fin cfg0.N, win0_11.index t = ![q0.val, q1.val, 0] :=
  (by decide +kernel : ∀ (q0 : Fin 8) (q1 : Fin 2), ∃ t : Fin grid0.N, win0_11.index t = ![q0.val, q1.val, 0])

/-- The input block at a point, read at (0, r, k), is the argument array at the entry the block's offsets put it. -/
theorem read_x2 (c : Dev nD) (t : Fin cfg0.N) (r : Fin 1024) (k : Fin 512) (i : S8x2048x512.Idx)
    (h0 : win0_2.index t (0 : Fin 3) * 1 + 1 * 0 = (i 0).val)
    (h1 : win0_2.index t (1 : Fin 3) * 1024 + 1 * r.val = (i 1).val)
    (h2 : win0_2.index t (2 : Fin 3) * 512 + 1 * k.val = (i 2).val) :
    (iblk0 V c 2 t : FVec Ideal S1x1024x512 .f32) (ix3 (0 : Fin 1) r k) = (V c main_arg2 : S8x2048x512.Idx → EReal) i := by
  unfold iblk0
  rw [View.read_apply]
  show V c main_arg2 _ = V c main_arg2 _
  refine congrArg (V c main_arg2) (funext fun a => Fin.ext ?_)
  match a with
  | ⟨0, _⟩ => exact h0
  | ⟨1, _⟩ => exact h1
  | ⟨2, _⟩ => exact h2

/-- The weight block at a point is the weight array. -/
theorem read_w7 (c : Dev nD) (t : Fin cfg0.N) (k : Fin 512) (d : Fin 64) (i : S512x64.Idx)
    (h0 : win0_7.index t (0 : Fin 2) * 512 + 1 * k.val = (i 0).val)
    (h1 : win0_7.index t (1 : Fin 2) * 64 + 1 * d.val = (i 1).val) :
    (iblk0 V c 7 t : FVec Ideal S512x64 .f32) (ix2 k d) = (V c main_arg7 : S512x64.Idx → EReal) i := by
  unfold iblk0
  rw [View.read_apply]
  show V c main_arg7 _ = V c main_arg7 _
  refine congrArg (V c main_arg7) (funext fun a => Fin.ext ?_)
  match a with
  | ⟨0, _⟩ => exact h0
  | ⟨1, _⟩ => exact h1

/-- The bias block at a point is the bias array. -/
theorem read_b8 (c : Dev nD) (t : Fin cfg0.N) (d : Fin 64) (i : S64.Idx)
    (h0 : win0_8.index t (0 : Fin 1) * 64 + 1 * d.val = (i 0).val) :
    (iblk0 V c 8 t : FVec Ideal S64 .f32) (ix1 d) = (V c main_arg8 : S64.Idx → EReal) i := by
  unfold iblk0
  rw [View.read_apply]
  show V c main_arg8 _ = V c main_arg8 _
  refine congrArg (V c main_arg8) (funext fun a => Fin.ext ?_)
  match a with
  | ⟨0, _⟩ => exact h0

/-- What point t writes back is block t of the whole projection of the arrays as the region finds them. -/
theorem flushed11_eq (c : Dev nD) (t : Fin cfg0.N) :
    (dat0 V c).flushed 11 t
      = ((cfg0.win 11).blk t).view.read (Elt Ideal) (proj (V c main_arg2) (V c main_arg7) (V c main_arg8)) := by
  show (cfg0.win 11).cut (grid0.coords t) ((dat0 V c).after 11 t) = _
  rw [after0_11]
  unfold out0_11
  rw [View.canon_unit_zero hz3]
  simp only [View.ld_unit_zero (S := S1x1024x512) hz3, View.ld_unit_zero (S := S512x64) hz2, View.ld_unit_zero (S := S64) hz1]
  rw [payV_eq]
  obtain ⟨eo2, ei0, ei1, ei2, ew0, ew1, eb0⟩ := idx_facts11 t
  funext y
  show stored (iblk0 V c 2 t) (iblk0 V c 7 t) (iblk0 V c 8 t) y
      = proj (V c main_arg2) (V c main_arg7) (V c main_arg8) (((cfg0.win 11).blk t).view.emb y)
  have hy0 : (y 0).val < 1 := (y 0).isLt
  refine stored_at (iblk0 V c 2 t) (iblk0 V c 7 t) (iblk0 V c 8 t) (V c main_arg2) (V c main_arg7) (V c main_arg8) y
    (((cfg0.win 11).blk t).view.emb y) (fun k => ?_) (fun k => ?_) ?_
  · refine read_x2 V c t (y 1) k _ ?_ ?_ ?_
    · show win0_2.index t (0 : Fin 3) * 1 + 1 * 0 = win0_11.index t (0 : Fin 3) * 1 + 1 * (y 0).val
      omega
    · show win0_2.index t (1 : Fin 3) * 1024 + 1 * (y 1).val = win0_11.index t (1 : Fin 3) * 1024 + 1 * (y 1).val
      omega
    · show win0_2.index t (2 : Fin 3) * 512 + 1 * k.val = k.val
      omega
  · refine read_w7 V c t k (y 2) _ ?_ ?_
    · show win0_7.index t (0 : Fin 2) * 512 + 1 * k.val = k.val
      omega
    · show win0_7.index t (1 : Fin 2) * 64 + 1 * (y 2).val = win0_11.index t (2 : Fin 3) * 64 + 1 * (y 2).val
      omega
  · refine read_b8 V c t (y 2) _ ?_
    show win0_8.index t (0 : Fin 1) * 64 + 1 * (y 2).val = win0_11.index t (2 : Fin 3) * 64 + 1 * (y 2).val
    omega

/-- An index of the array is in point t's block iff each coordinate is in the block's range on its axis. -/
theorem mem_blk11 (t : Fin cfg0.N) (i : S8x2048x64.Idx) :
    i ∈ ((cfg0.win 11).blk t).view.set ↔ ∀ a : Fin 3, win0_11.index t a * S1x1024x64.size a ≤ (i a).val
      ∧ (i a).val < win0_11.index t a * S1x1024x64.size a + S1x1024x64.size a := by
  show i ∈ ((View.whole main_v0_2).slice (win0_11.rect t)).set ↔ _
  rw [View.set_slice_whole, Rect.mem_set_unit]
  exact Iff.rfl

/-- The blocks tile the array: the entry at (n, s, d) lies in the block of batch n and position tile s / 1024. -/
theorem cover11 (i : S8x2048x64.Idx) :
    ∃ t : Fin cfg0.N, (cfg0.win 11).flush t = true ∧ i ∈ ((cfg0.win 11).blk t).view.set := by
  have hi0 : (i 0).val < 8 := (i 0).isLt
  have hi1 : (i 1).val < 2048 := (i 1).isLt
  have hi2 : (i 2).val < 64 := (i 2).isLt
  obtain ⟨t, ht⟩ := idx_onto11 ⟨(i 0).val, hi0⟩ ⟨(i 1).val / 1024, by omega⟩
  have q0 : win0_11.index t (0 : Fin 3) = (i 0).val := congrFun ht 0
  have q1 : win0_11.index t (1 : Fin 3) = (i 1).val / 1024 := congrFun ht 1
  have q2 : win0_11.index t (2 : Fin 3) = 0 := congrFun ht 2
  refine ⟨t, flush0_11 t, ?_⟩
  rw [mem_blk11]
  intro a
  match a with
  | ⟨0, _⟩ =>
    show win0_11.index t (0 : Fin 3) * 1 ≤ (i 0).val ∧ (i 0).val < win0_11.index t (0 : Fin 3) * 1 + 1
    omega
  | ⟨1, _⟩ =>
    show win0_11.index t (1 : Fin 3) * 1024 ≤ (i 1).val ∧ (i 1).val < win0_11.index t (1 : Fin 3) * 1024 + 1024
    omega
  | ⟨2, _⟩ =>
    show win0_11.index t (2 : Fin 3) * 64 ≤ (i 2).val ∧ (i 2).val < win0_11.index t (2 : Fin 3) * 64 + 64
    omega

/-- After the region the value array is the whole projection of the arrays the region was entered with. -/
theorem final11 (c : Dev nD) :
    (dat0 V c).arrAt 11 cfg0.N = proj (V c main_arg2) (V c main_arg7) (V c main_arg8) :=
  (dat0 V c).arrAt_eq_of_cover 11 _ (fun t _ => flushed11_eq V c t) cover11

end Cert.KernelIdeal.ProjValue

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.AttnTile.lean ====
/-
  What one grid point of the attention region stores, read at an entry of its [1, 512, 64] output block.

  The body loads a query block x0 [1, 512, 64], the whole key slab x1 [1, 2048, 64] and the whole value slab
  x2 [1, 2048, 64] of one batch, and stores, at (u, i, d),

      ( Σ_j p i j · x2 (0, j, d) ) / ( Σ_j p i j ),    p i j = exp ( s i j - max_j s i j ),
      s i j = Σ_d' ( x0 (0, i, d') · c ) · x1 (0, j, d'),

  with c the scale 1/8 (as a bf16 word). That is the first arrangement of one attention row (the scale folded into
  the query, one division after the contraction with the values) applied to query row i, the keys, and column d of
  the values.
-/
import proofs.«108945_j78099685310952_2_alg».proof.Proof.Gen.KernelIdeal.Skeleton
import proofs.«108945_j78099685310952_2_alg».proof.Proof.KernelDots
import proofs.«108945_j78099685310952_2_alg».proof.Proof.AttnRow
import proofs.«108945_j78099685310952_2_alg».proof.Proof.AttnSpec
import proofs.«108945_j78099685310952_2_alg».proof.Proof.LibColumn
import Idealize.ShloMosaic.Lib.ValueLayout
import Idealize.ShloMosaic.Lib.Pipeline.Value

noncomputable section

open scoped BigOperators

namespace Cert.KernelIdeal.Tile

open Cert.KernelIdeal Cert.KernelIdeal.Gen
open Idealize.ShloMosaic Idealize.ShloMosaic.ValueIdx Cert.AttnRow Cert.LibColumn Cert.KernelIdeal.Dots Cert.AttnSpec

/-- The scale the kernel multiplies the query block by: the bf16 word of 1/8, as an extended real. -/
abbrev c16 : EReal := Ideal.ofBits .bf16 0x3E00#16

/-- The score tile of a query block and a key slab. -/
def S (x0 : FVec Ideal S1x512x64 .bf16) (x1 : FVec Ideal S1x2048x64 .bf16) : FVec Ideal S512x2048 .f32 :=
  matmul dot_S512x64_S2048x64_S512x2048_1_1_0_0_n_n none
    (mulf (shapeCast S512x64 x0 shapeCasts_S1x512x64_S512x64) (broadcast S512x64 (Scalar.ofBits (F := Ideal) .bf16 0x3E00#16)))
    (shapeCast S2048x64 x1 shapeCasts_S1x2048x64_S2048x64) (constant (F := Ideal) S512x2048 .f32 0x00000000#32)

/-- The row maxima of a tile, from -∞. -/
def Mx (s : FVec Ideal S512x2048 .f32) : FVec Ideal S512 .f32 :=
  multiReduction .maximumf [1] S512 s 0xFF800000#32 reduces_S512x2048_S512 (.inl rfl) rfl

/-- The unnormalized weights of a tile: exp (entry - its row's maximum). -/
def P (s : FVec Ideal S512x2048 .f32) : FVec Ideal S512x2048 .f32 :=
  exp (subf s (broadcastTo S512x2048 (shapeCast S512x1 (Mx s) shapeCasts_S512_S512x1) broadcasts_S512x1_S512x2048))

/-- The row sums of a tile, from 0. -/
def Lsum (p : FVec Ideal S512x2048 .f32) : FVec Ideal S512 .f32 :=
  multiReduction .add [1] S512 p 0x00000000#32 reduces_S512x2048_S512 (.inl rfl) rfl

/-- The stored value is the output tile divided, row by row, by the weights' row sums. -/
theorem pay_eq (x0 : FVec Ideal S1x512x64 .bf16) (x1 x2 : FVec Ideal S1x2048x64 .bf16) :
    k1_pay1 (F := Ideal) x0 x1 x2
      = shapeCast S1x512x64
          (divf
            (matmul dot_S512x2048_S2048x64_S512x64_1_0_0_1_n_n none (truncf .bf16 (P (S x0 x1)) bitsLt_bf16_f32)
              (shapeCast S2048x64 x2 shapeCasts_S1x2048x64_S2048x64) (constant (F := Ideal) S512x64 .f32 0x00000000#32))
            (broadcastTo S512x64 (shapeCast S512x1 (Lsum (P (S x0 x1))) shapeCasts_S512_S512x1) broadcasts_S512x1_S512x64))
          shapeCasts_S512x64_S1x512x64 := rfl

/-- The -∞ word is the bottom of the extended reals. -/
theorem ofBits_neg_inf : Ideal.ofBits .f32 0xFF800000#32 = ⊥ := by
  simp [Ideal.ofBits, Ideal.ieee]

/-- The score tile at (i, j): the first arrangement's score of query row i against key row j. -/
theorem S_apply (x0 : FVec Ideal S1x512x64 .bf16) (x1 : FVec Ideal S1x2048x64 .bf16) (i : Fin 512) (j : Fin 2048) :
    S x0 x1 (ix2 i j)
      = scoreK c16 (fun d => x0 (ix3 (0 : Fin 1) i d)) (fun j d => x1 (ix3 (0 : Fin 1) j d)) j := by
  unfold S
  rw [score_apply]
  unfold scoreK
  refine Finset.sum_congr rfl fun d _ => ?_
  show (shapeCast S512x64 x0 shapeCasts_S1x512x64_S512x64 (ix2 i d) * Ideal.ofBits .bf16 0x3E00#16)
      * shapeCast S2048x64 x1 shapeCasts_S1x2048x64_S2048x64 (ix2 j d) = _
  rw [shapeCast_1ab_ab_apply, shapeCast_1ab_ab_apply]

/-- A row's maximum: the fold of max from -∞ over the row. -/
theorem Mx_apply (s : FVec Ideal S512x2048 .f32) (i : Fin 512) :
    Mx s (ix1 i) = top (fun j : Fin 2048 => s (ix2 i j)) := by
  unfold Mx top
  refine (Ideal.multiReduction_maximumf_single s 0xFF800000#32 reduces_S512x2048_S512 (.inl rfl) rfl (ix1 i)).trans ?_
  show (Finset.univ : Finset (Fin 2048)).fold max (Ideal.ofBits .f32 0xFF800000#32) (s ∘ reduces_S512x2048_S512.lift (ix1 i)) = _
  rw [ofBits_neg_inf]
  refine congrArg (Finset.fold max ⊥ · Finset.univ) (funext fun k => ?_)
  exact congrArg s (funext fun a => Fin.ext (by match a with | ⟨0, _⟩ => rfl | ⟨1, _⟩ => rfl))

/-- A weight at (i, j). -/
theorem P_apply (s : FVec Ideal S512x2048 .f32) (i : Fin 512) (j : Fin 2048) :
    P s (ix2 i j) = wt (fun j : Fin 2048 => s (ix2 i j)) (top (fun j : Fin 2048 => s (ix2 i j))) j := by
  unfold P wt
  show Ideal.exp (s (ix2 i j) - broadcastTo S512x2048 (shapeCast S512x1 (Mx s) shapeCasts_S512_S512x1) broadcasts_S512x1_S512x2048 (ix2 i j)) = _
  rw [broadcastTo_a1_ab_apply, shapeCast_a_a1_apply, Mx_apply]

/-- A row's sum: the sum over the row. -/
theorem Lsum_apply (p : FVec Ideal S512x2048 .f32) (i : Fin 512) :
    Lsum p (ix1 i) = ∑ j : Fin 2048, p (ix2 i j) := by
  unfold Lsum
  refine (Ideal.multiReduction_add_single p 0x00000000#32 reduces_S512x2048_S512 (.inl rfl) rfl (ix1 i)).trans ?_
  refine Finset.sum_congr rfl fun k _ => ?_
  exact congrArg p (funext fun a => Fin.ext (by match a with | ⟨0, _⟩ => rfl | ⟨1, _⟩ => rfl))

/-- The stored block at (u, i, d) is the first arrangement of the attention row of query row i against the keys
    and column d of the values. -/
theorem pay_apply (x0 : FVec Ideal S1x512x64 .bf16) (x1 x2 : FVec Ideal S1x2048x64 .bf16) (u : Fin 1) (i : Fin 512) (d : Fin 64) :
    k1_pay1 (F := Ideal) x0 x1 x2 (ix3 u i d)
      = rowK c16 (fun d' => x0 (ix3 (0 : Fin 1) i d')) (fun j d' => x1 (ix3 (0 : Fin 1) j d')) (fun j => x2 (ix3 (0 : Fin 1) j d)) := by
  rw [pay_eq, shapeCast_ab_1ab_apply]
  show Ideal.div
      (matmul dot_S512x2048_S2048x64_S512x64_1_0_0_1_n_n none (truncf .bf16 (P (S x0 x1)) bitsLt_bf16_f32)
        (shapeCast S2048x64 x2 shapeCasts_S1x2048x64_S2048x64) (constant (F := Ideal) S512x64 .f32 0x00000000#32) (ix2 i d))
      (broadcastTo S512x64 (shapeCast S512x1 (Lsum (P (S x0 x1))) shapeCasts_S512_S512x1) broadcasts_S512x1_S512x64 (ix2 i d)) = _
  rw [out_apply, broadcastTo_a1_ab_apply, shapeCast_a_a1_apply, Lsum_apply]
  have hs : (fun j : Fin 2048 => S x0 x1 (ix2 i j))
      = scoreK c16 (fun d' => x0 (ix3 (0 : Fin 1) i d')) (fun j d' => x1 (ix3 (0 : Fin 1) j d')) :=
    funext fun j => S_apply x0 x1 i j
  unfold rowK
  rw [← hs]
  refine congrArg₂ Ideal.div (Finset.sum_congr rfl fun j _ => ?_) (Finset.sum_congr rfl fun j _ => P_apply _ i j)
  show P (S x0 x1) (ix2 i j) * shapeCast S2048x64 x2 shapeCasts_S1x2048x64_S2048x64 (ix2 j d) = _
  rw [P_apply, shapeCast_1ab_ab_apply]

/-- A stored block is a block of the whole attention output: if the loaded query block's row is the row of the
    array q the stored entry lands on, and the loaded key and value slabs are the batch's keys and values, the
    stored entry is the first arrangement's entry there. -/
theorem pay_at (x0 : FVec Ideal S1x512x64 .bf16) (x1 x2 : FVec Ideal S1x2048x64 .bf16) (Q K W : Arr3 8 2048 64)
    (y : S1x512x64.Idx) (o : S8x2048x64.Idx)
    (hq : ∀ d' : Fin 64, x0 (ix3 (0 : Fin 1) (y 1) d') = Q (ix3 (o 0) (o 1) d'))
    (hk : ∀ (j : Fin 2048) (d' : Fin 64), x1 (ix3 (0 : Fin 1) j d') = K (ix3 (o 0) j d'))
    (hv : ∀ j : Fin 2048, x2 (ix3 (0 : Fin 1) j (y 2)) = W (ix3 (o 0) j (o 2))) :
    k1_pay1 (F := Ideal) x0 x1 x2 y = attnK c16 Q K W o := by
  refine ((congrArg (k1_pay1 (F := Ideal) x0 x1 x2) (eq_ix3 y)).trans (pay_apply x0 x1 x2 (y 0) (y 1) (y 2))).trans ?_
  unfold attnK attnKAt
  have e1 : (fun d' : Fin 64 => x0 (ix3 (0 : Fin 1) (y 1) d')) = fun d' : Fin 64 => Q (ix3 (o 0) (o 1) d') := funext hq
  have e2 : (fun (j : Fin 2048) (d' : Fin 64) => x1 (ix3 (0 : Fin 1) j d')) = fun (j : Fin 2048) (d' : Fin 64) => K (ix3 (o 0) j d') :=
    funext fun j => funext fun d' => hk j d'
  have e3 : (fun j : Fin 2048 => x2 (ix3 (0 : Fin 1) j (y 2))) = fun j : Fin 2048 => W (ix3 (o 0) j (o 2)) := funext hv
  rw [e1, e2, e3]

end Cert.KernelIdeal.Tile

end
-- ==== Proof.AttnValue.lean ====
/-
  The attention region, from blocks to the array.

  Its grid is 8 batches by 4 query tiles of 512 rows. At each point the body loads the point's query block and
  the WHOLE key and value slabs of the point's batch, and stores in its [1, 512, 64] output block the first
  arrangement of attention of those rows. Each stored block is the corresponding block of one whole-array
  function of the three arrays the region is entered with; the 32 blocks tile the [8, 2048, 64] output; so after
  the region the output array IS that function. Stated for any contents V the region is entered with.
-/
import proofs.«108945_j78099685310952_2_alg».proof.Proof.Gen.KernelIdeal.Frame
import proofs.«108945_j78099685310952_2_alg».proof.Proof.AttnTile
import proofs.«108945_j78099685310952_2_alg».proof.Proof.AttnSpec
import Idealize.ShloMosaic.Lib.Pipeline.Value

set_option maxRecDepth 16384

noncomputable section

namespace Cert.KernelIdeal.AttnValue

open Cert.KernelIdeal Cert.KernelIdeal.Gen
open Idealize.ShloMosaic Idealize.ShloMosaic.TcCoe Idealize.SL.Sem Idealize.ShloMosaic.ValueIdx
open Idealize.ShloMosaic.Pipeline (Dat)
open Cert.AttnSpec Cert.KernelIdeal.Tile

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the grid's 32 points: the query block moves with the output block on the
    batch and query-tile axes; the key and value slabs move with it on the batch axis only and sit at block 0 on
    the other two; no window moves on the feature axis. -/
theorem idx_facts3 : ∀ t : Fin cfg1.N,
    win1_3.index t (2 : Fin 3) = 0
    ∧ win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0 :=
  (by decide +kernel : ∀ t : Fin grid1.N, _)

/-- Every (batch, query tile) pair is some point's output block. -/
theorem idx_onto3 : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- The query block at a point, read at (0, r, d), is the query array at the entry the block's offsets put it. -/
theorem read_q (c : Dev nD) (t : Fin cfg1.N) (r : Fin 512) (d : Fin 64) (i : S8x2048x64.Idx)
    (h0 : win1_0.index t (0 : Fin 3) * 1 + 1 * 0 = (i 0).val)
    (h1 : win1_0.index t (1 : Fin 3) * 512 + 1 * r.val = (i 1).val)
    (h2 : win1_0.index t (2 : Fin 3) * 64 + 1 * d.val = (i 2).val) :
    (iblk1 V c 0 t : FVec Ideal S1x512x64 .bf16) (ix3 (0 : Fin 1) r d) = (V c main_v0_0 : S8x2048x64.Idx → EReal) i := by
  unfold iblk1
  rw [View.read_apply]
  show V c main_v0_0 _ = V c main_v0_0 _
  refine congrArg (V c main_v0_0) (funext fun a => Fin.ext ?_)
  match a with
  | ⟨0, _⟩ => exact h0
  | ⟨1, _⟩ => exact h1
  | ⟨2, _⟩ => exact h2

/-- The key slab at a point, read at (0, j, d), is the key array at the entry the slab's offsets put it. -/
theorem read_k (c : Dev nD) (t : Fin cfg1.N) (r : Fin 2048) (d : Fin 64) (i : S8x2048x64.Idx)
    (h0 : win1_1.index t (0 : Fin 3) * 1 + 1 * 0 = (i 0).val)
    (h1 : win1_1.index t (1 : Fin 3) * 2048 + 1 * r.val = (i 1).val)
    (h2 : win1_1.index t (2 : Fin 3) * 64 + 1 * d.val = (i 2).val) :
    (iblk1 V c 1 t : FVec Ideal S1x2048x64 .bf16) (ix3 (0 : Fin 1) r d) = (V c main_v0_1 : S8x2048x64.Idx → EReal) i := by
  unfold iblk1
  rw [View.read_apply]
  show V c main_v0_1 _ = V c main_v0_1 _
  refine congrArg (V c main_v0_1) (funext fun a => Fin.ext ?_)
  match a with
  | ⟨0, _⟩ => exact h0
  | ⟨1, _⟩ => exact h1
  | ⟨2, _⟩ => exact h2

/-- The value slab at a point, read at (0, j, d), is the value array at the entry the slab's offsets put it. -/
theorem read_v (c : Dev nD) (t : Fin cfg1.N) (r : Fin 2048) (d : Fin 64) (i : S8x2048x64.Idx)
    (h0 : win1_2.index t (0 : Fin 3) * 1 + 1 * 0 = (i 0).val)
    (h1 : win1_2.index t (1 : Fin 3) * 2048 + 1 * r.val = (i 1).val)
    (h2 : win1_2.index t (2 : Fin 3) * 64 + 1 * d.val = (i 2).val) :
    (iblk1 V c 2 t : FVec Ideal S1x2048x64 .bf16) (ix3 (0 : Fin 1) r d) = (V c main_v0_2 : S8x2048x64.Idx → EReal) i := by
  unfold iblk1
  rw [View.read_apply]
  show V c main_v0_2 _ = V c main_v0_2 _
  refine congrArg (V c main_v0_2) (funext fun a => Fin.ext ?_)
  match a with
  | ⟨0, _⟩ => exact h0
  | ⟨1, _⟩ => exact h1
  | ⟨2, _⟩ => exact h2

/-- What point t writes back is block t of the whole attention output of the arrays as the region finds them. -/
theorem flushed3_eq (c : Dev nD) (t : Fin cfg1.N) :
    (dat1 V c).flushed 3 t
      = ((cfg1.win 3).blk t).view.read (Elt Ideal) (attnK c16 (V c main_v0_0) (V c main_v0_1) (V c main_v0_2)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x2048x64) hz3]
  obtain ⟨eo2, eq0, eq1, eq2, ek0, ek1, ek2, ev0, ev1, ev2⟩ := idx_facts3 t
  funext y
  show k1_pay1 (F := Ideal) (iblk1 V c 0 t) (iblk1 V c 1 t) (iblk1 V c 2 t) y
      = attnK c16 (V c main_v0_0) (V c main_v0_1) (V c main_v0_2) (((cfg1.win 3).blk t).view.emb y)
  have hy0 : (y 0).val < 1 := (y 0).isLt
  refine pay_at (iblk1 V c 0 t) (iblk1 V c 1 t) (iblk1 V c 2 t) (V c main_v0_0) (V c main_v0_1) (V c main_v0_2) y
    (((cfg1.win 3).blk t).view.emb y) (fun d' => ?_) (fun j d' => ?_) (fun j => ?_)
  · refine read_q V c t (y 1) d' _ ?_ ?_ ?_
    · show win1_0.index t (0 : Fin 3) * 1 + 1 * 0 = win1_3.index t (0 : Fin 3) * 1 + 1 * (y 0).val
      omega
    · show win1_0.index t (1 : Fin 3) * 512 + 1 * (y 1).val = win1_3.index t (1 : Fin 3) * 512 + 1 * (y 1).val
      omega
    · show win1_0.index t (2 : Fin 3) * 64 + 1 * d'.val = d'.val
      omega
  · refine read_k V c t j d' _ ?_ ?_ ?_
    · show win1_1.index t (0 : Fin 3) * 1 + 1 * 0 = win1_3.index t (0 : Fin 3) * 1 + 1 * (y 0).val
      omega
    · show win1_1.index t (1 : Fin 3) * 2048 + 1 * j.val = j.val
      omega
    · show win1_1.index t (2 : Fin 3) * 64 + 1 * d'.val = d'.val
      omega
  · refine read_v V c t j (y 2) _ ?_ ?_ ?_
    · show win1_2.index t (0 : Fin 3) * 1 + 1 * 0 = win1_3.index t (0 : Fin 3) * 1 + 1 * (y 0).val
      omega
    · show win1_2.index t (1 : Fin 3) * 2048 + 1 * j.val = j.val
      omega
    · show win1_2.index t (2 : Fin 3) * 64 + 1 * (y 2).val = win1_3.index t (2 : Fin 3) * 64 + 1 * (y 2).val
      omega

/-- An index of the array is in point t's block iff each coordinate is in the block's range on its axis. -/
theorem mem_blk3 (t : Fin cfg1.N) (i : S8x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v1).slice (win1_3.rect t)).set ↔ _
  rw [View.set_slice_whole, Rect.mem_set_unit]
  exact Iff.rfl

/-- The blocks tile the array: the entry at (n, i, d) lies in the block of batch n and query tile i / 512. -/
theorem cover3 (i : S8x2048x64.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, ht⟩ := idx_onto3 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 64 ≤ (i 2).val ∧ (i 2).val < win1_3.index t (2 : Fin 3) * 64 + 64
    omega

/-- After the region the output array is the first arrangement of attention of the three arrays the region was
    entered with. -/
theorem final3 (c : Dev nD) :
    (dat1 V c).arrAt 3 cfg1.N = attnK c16 (V c main_v0_0) (V c main_v0_1) (V c main_v0_2) :=
  (dat1 V c).arrAt_eq_of_cover 3 _ (fun t _ => flushed3_eq V c t) cover3

end Cert.KernelIdeal.AttnValue

end
-- ==== Proof.KernelValue.lean ====
/-
  The idealized kernel's result as one function of its arguments.

  The attention region leaves, in the result array, the first arrangement of attention of the three arrays it is
  entered with; those are what the projection region leaves in its three output arrays, the dense projections of
  the arguments (which no region writes). So the result is the first arrangement of attention of the three
  projections of the arguments, and the run of the whole program ends with the result array at that function.
-/
import proofs.«108945_j78099685310952_2_alg».proof.Proof.KernelRun
import proofs.«108945_j78099685310952_2_alg».proof.Proof.ProjValue
import proofs.«108945_j78099685310952_2_alg».proof.Proof.AttnValue

set_option maxRecDepth 16384

noncomputable section

namespace Cert.KernelIdeal.Result

open Cert.KernelIdeal Cert.KernelIdeal.Gen Cert.KernelIdeal.Whole
open Idealize.ShloMosaic Idealize.ShloMosaic.TcCoe Idealize.SL.Sem
open Cert.AttnSpec Cert.KernelIdeal.Tile

variable (m : (ℓ : Loc nD τ sig) → Buf (Elt Ideal) ℓ) (ρ : Dev nD → PrngReg)

/-- The kernel's result: the first arrangement of attention over the three projections of the arguments. -/
def G (c : Dev nD) : Buf (Elt Ideal) ((c.tc : Thread nD τ).loc main_v1) :=
  attnK c16
    (proj (m ((c.tc : Thread nD τ).loc main_arg0)) (m ((c.tc : Thread nD τ).loc main_arg3)) (m ((c.tc : Thread nD τ).loc main_arg4)))
    (proj (m ((c.tc : Thread nD τ).loc main_arg1)) (m ((c.tc : Thread nD τ).loc main_arg5)) (m ((c.tc : Thread nD τ).loc main_arg6)))
    (proj (m ((c.tc : Thread nD τ).loc main_arg2)) (m ((c.tc : Thread nD τ).loc main_arg7)) (m ((c.tc : Thread nD τ).loc main_arg8)))

/-- What the second region leaves in the result array is that function of the arguments. -/
theorem result_value (c : Dev nD) : (dat1 (V1 m ρ) c).arrAt 3 cfg1.N = G m c := by
  rw [AttnValue.final3 (V1 m ρ) c, entry_q m ρ c, entry_k m ρ c, entry_v m ρ c,
    ProjValue.final9 (V0 m ρ) c, ProjValue.final10 (V0 m ρ) c, ProjValue.final11 (V0 m ρ) c]
  rfl

/-- Every weakly fair execution of the idealized kernel terminates, nothing faulting, with the result array at the
    first arrangement of attention over the three projections of the arguments, and the arguments as launched. -/
theorem run_value : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_value m ρ c), (h c).2⟩) (run_named m ρ)

end Cert.KernelIdeal.Result

end
-- ==== Proof.Consts.lean ====
/-
  The float words the two programs spell, as the extended reals they denote: -∞, and the scale 1/8 in both of its
  spellings (an f32 word in the reference, a bf16 word in the kernel).
-/
import Idealize.ShloMosaic.PureOps.Ideal

noncomputable section

namespace Cert.Consts

open Idealize.ShloMosaic

/-- The f32 word of -∞ is the bottom of the extended reals. -/
theorem ofBits_neg_inf : Ideal.ofBits .f32 0xFF800000#32 = ⊥ := by
  simp [Ideal.ofBits, Ideal.ieee]

/-- The f32 word 0x3E000000 (sign 0, exponent 124, significand 0) denotes 2^(124 - 127) = 1/8. -/
theorem ofBits_eighth_f32 : Ideal.ofBits .f32 0x3E000000#32 = ((1 / 8 : ℝ) : EReal) := by
  simp [Ideal.ofBits, Ideal.ieee, -EReal.coe_mul]; norm_num

/-- The bf16 word 0x3E00 (sign 0, exponent 124, significand 0) denotes 1/8 too. -/
theorem ofBits_eighth_bf16 : Ideal.ofBits .bf16 0x3E00#16 = ((1 / 8 : ℝ) : EReal) := by
  simp [Ideal.ofBits, Ideal.ieee, -EReal.coe_mul]; norm_num

end Cert.Consts

end
-- ==== Proof.RefValue.lean ====
/-
  The reference's result, read: it is the second arrangement of attention (scaled contraction, weights normalized
  by 0 + their sum before the contraction with the values, the row maximum taken once more against -∞) applied to
  the three dense projections of the arguments. Read one host operation at a time through the generated
  read-at-an-index lemmas; the one operation those do not read, the row maximum, is read as the fold of max from
  the initial value over the reduced axis.
-/
import proofs.«108945_j78099685310952_2_alg».proof.Proof.Gen.ReferenceIdeal.Read
import proofs.«108945_j78099685310952_2_alg».proof.Proof.AttnSpec
import proofs.«108945_j78099685310952_2_alg».proof.Proof.Consts

noncomputable section

open scoped BigOperators

namespace Cert.ReferenceIdeal.RefValue

open Cert.ReferenceIdeal Cert.ReferenceIdeal.Gen Cert.ReferenceIdeal.Read
open Idealize.ShloMosaic Idealize.ShloMosaic.ValueIdx Cert.AttnSpec Cert.AttnRow

/-- The scale the reference multiplies the scores by: the f32 word of 1/8, as an extended real. -/
abbrev c32 : EReal := Ideal.ofBits .f32 0x3E000000#32

variable (x0 x1 x2 : (⟨S8x2048x512, .f32⟩ : BufTy).Contents (Elt Ideal))
variable (x3 : (⟨S512x64, .f32⟩ : BufTy).Contents (Elt Ideal)) (x4 : (⟨S64, .f32⟩ : BufTy).Contents (Elt Ideal))
variable (x5 : (⟨S512x64, .f32⟩ : BufTy).Contents (Elt Ideal)) (x6 : (⟨S64, .f32⟩ : BufTy).Contents (Elt Ideal))
variable (x7 : (⟨S512x64, .f32⟩ : BufTy).Contents (Elt Ideal)) (x8 : (⟨S64, .f32⟩ : BufTy).Contents (Elt Ideal))

/-- The reference's q projection (a contraction over the model index, a bias broadcast twice, an add) is the
    dense projection. -/
theorem q_eq : val_main_v3 (F := Ideal) x0 x3 x4 = proj x0 x3 x4 := by
  funext i
  have el : ∀ k : Fin 512, lidx_main_v0 i k = ix3 (i 0) (i 1) k := fun k => funext fun a => Fin.ext (by match a with | ⟨0, _⟩ => rfl | ⟨1, _⟩ => rfl | ⟨2, _⟩ => rfl)
  have er : ∀ k : Fin 512, ridx_main_v0 i k = ix2 k (i 2) := fun k => funext fun a => Fin.ext (by match a with | ⟨0, _⟩ => rfl | ⟨1, _⟩ => rfl)
  have eb : idx_main_v1 (idx_main_v2 i) = ix1 (i 2) := funext fun a => Fin.ext (by match a with | ⟨0, _⟩ => rfl)
  rw [val_main_v3_apply, val_main_v0_apply, val_main_v2_apply, val_main_v1_apply, eb]
  simp only [el, er]
  rfl

/-- The reference's k projection (a contraction over the model index, a bias broadcast twice, an add) is the
    dense projection. -/
theorem k_eq : val_main_v7 (F := Ideal) x1 x5 x6 = proj x1 x5 x6 := by
  funext i
  have el : ∀ k : Fin 512, lidx_main_v4 i k = ix3 (i 0) (i 1) k := fun k => funext fun a => Fin.ext (by match a with | ⟨0, _⟩ => rfl | ⟨1, _⟩ => rfl | ⟨2, _⟩ => rfl)
  have er : ∀ k : Fin 512, ridx_main_v4 i k = ix2 k (i 2) := fun k => funext fun a => Fin.ext (by match a with | ⟨0, _⟩ => rfl | ⟨1, _⟩ => rfl)
  have eb : idx_main_v5 (idx_main_v6 i) = ix1 (i 2) := funext fun a => Fin.ext (by match a with | ⟨0, _⟩ => rfl)
  rw [val_main_v7_apply, val_main_v4_apply, val_main_v6_apply, val_main_v5_apply, eb]
  simp only [el, er]
  rfl

/-- The reference's v projection (a contraction over the model index, a bias broadcast twice, an add) is the
    dense projection. -/
theorem v_eq : val_main_v11 (F := Ideal) x2 x7 x8 = proj x2 x7 x8 := by
  funext i
  have el : ∀ k : Fin 512, lidx_main_v8 i k = ix3 (i 0) (i 1) k := fun k => funext fun a => Fin.ext (by match a with | ⟨0, _⟩ => rfl | ⟨1, _⟩ => rfl | ⟨2, _⟩ => rfl)
  have er : ∀ k : Fin 512, ridx_main_v8 i k = ix2 k (i 2) := fun k => funext fun a => Fin.ext (by match a with | ⟨0, _⟩ => rfl | ⟨1, _⟩ => rfl)
  have eb : idx_main_v9 (idx_main_v10 i) = ix1 (i 2) := funext fun a => Fin.ext (by match a with | ⟨0, _⟩ => rfl)
  rw [val_main_v11_apply, val_main_v8_apply, val_main_v10_apply, val_main_v9_apply, eb]
  simp only [el, er]
  rfl

/-- The key axis of the score array is reduced away, leaving (batch, query). -/
theorem red : S8x2048x2048.Reduces [2] S8x2048 := by decide

/-- A maximum over the key axis, read at (n, i): the fold of max from the initial value over the row. -/
theorem rowmax_apply (s : S8x2048x2048.Idx → EReal) (init : S_.Idx → EReal) (n : Fin 8) (i : Fin 2048) :
    Host.reduce (max : EReal → EReal → EReal) s init reducesTo_S8x2048x2048_S8x2048_d2 h_S_ (ix2 n i)
      = Finset.univ.fold max (init (Shape.Idx.first h_S_)) (fun j : Fin 2048 => s (ix3 n i j)) := by
  rw [Host.reduce_eq_fold_single (max : EReal → EReal → EReal) s init reducesTo_S8x2048x2048_S8x2048_d2 red h_S_ (ix2 n i)]
  refine congrArg (Finset.fold max _ · Finset.univ) (funext fun k => ?_)
  exact congrArg s (funext fun a => Fin.ext (by match a with | ⟨0, _⟩ => rfl | ⟨1, _⟩ => rfl | ⟨2, _⟩ => rfl))

/-- The scaled scores at (n, i, j): the second arrangement's score of query row i against key row j. -/
theorem s_eq (n : Fin 8) (i j : Fin 2048) :
    val_main_v14 (F := Ideal) x0 x1 x3 x4 x5 x6 (ix3 n i j)
      = scoreR c32 (fun d : Fin 64 => proj x0 x3 x4 (ix3 n i d)) (fun (j : Fin 2048) (d : Fin 64) => proj x1 x5 x6 (ix3 n j d)) j := by
  have el : ∀ k : Fin 64, lidx_main_v12 (ix3 n i j) k = ix3 n i k := fun k => funext fun a => Fin.ext (by match a with | ⟨0, _⟩ => rfl | ⟨1, _⟩ => rfl | ⟨2, _⟩ => rfl)
  have er : ∀ k : Fin 64, ridx_main_v12 (ix3 n i j) k = ix3 n j k := fun k => funext fun a => Fin.ext (by match a with | ⟨0, _⟩ => rfl | ⟨1, _⟩ => rfl | ⟨2, _⟩ => rfl)
  rw [val_main_v14_apply, val_main_v12_apply, val_main_v13_apply, val_main_cst_apply, q_eq, k_eq]
  simp only [el, er]
  rfl

/-- The row maximum at (n, i): the fold of max from -∞ over the row, taken once more against -∞. -/
theorem m_eq (n : Fin 8) (i : Fin 2048) :
    val_main_v17 (F := Ideal) x0 x1 x3 x4 x5 x6 (ix2 n i)
      = max ⊥ (top (fun j : Fin 2048 => val_main_v14 (F := Ideal) x0 x1 x3 x4 x5 x6 (ix3 n i j))) := by
  rw [val_main_v17_apply, val_main_v16_apply, val_main_cst_1_apply]
  show max (Ideal.ofBits .f32 0xFF800000#32) (val_main_v15 (F := Ideal) x0 x1 x3 x4 x5 x6 (ix2 n i)) = _
  rw [Cert.Consts.ofBits_neg_inf]
  refine congrArg (max ⊥) ?_
  unfold val_main_v15 top
  generalize val_main_v14 (F := Ideal) x0 x1 x3 x4 x5 x6 = s
  show Host.reduce (max : EReal → EReal → EReal) s (val_main_cst_0 (F := Ideal)) reducesTo_S8x2048x2048_S8x2048_d2 h_S_ (ix2 n i) = _
  rw [rowmax_apply]
  show Finset.univ.fold max (Ideal.ofBits .f32 0xFF800000#32) (fun j : Fin 2048 => s (ix3 n i j)) = _
  rw [Cert.Consts.ofBits_neg_inf]

/-- The unnormalized weight at (n, i, j). -/
theorem p_eq (n : Fin 8) (i j : Fin 2048) :
    val_main_v21 (F := Ideal) x0 x1 x3 x4 x5 x6 (ix3 n i j)
      = wt (fun j : Fin 2048 => val_main_v14 (F := Ideal) x0 x1 x3 x4 x5 x6 (ix3 n i j))
          (max ⊥ (top (fun j : Fin 2048 => val_main_v14 (F := Ideal) x0 x1 x3 x4 x5 x6 (ix3 n i j)))) j := by
  have e : idx_main_v18 (idx_main_v19 (ix3 n i j)) = ix2 n i := funext fun a => Fin.ext (by match a with | ⟨0, _⟩ => rfl | ⟨1, _⟩ => rfl)
  rw [val_main_v21_apply, val_main_v20_apply, val_main_v19_apply, val_main_v18_apply, e, m_eq]
  rfl

/-- The weights' row sum at (n, i), from 0. -/
theorem l_eq (n : Fin 8) (i : Fin 2048) :
    val_main_v22 (F := Ideal) x0 x1 x3 x4 x5 x6 (ix2 n i)
      = 0 + ∑ j : Fin 2048, val_main_v21 (F := Ideal) x0 x1 x3 x4 x5 x6 (ix3 n i j) := by
  have e : ∀ k : Fin 2048, idx_main_v22 (ix2 n i) k = ix3 n i k := fun k => funext fun a => Fin.ext (by match a with | ⟨0, _⟩ => rfl | ⟨1, _⟩ => rfl | ⟨2, _⟩ => rfl)
  rw [val_main_v22_apply, val_main_cst_2_apply]
  simp only [e]
  show Ideal.ofBits .f32 0x00000000#32 + _ = _
  rw [Ideal.ofBits_zero_f32]

/-- The normalized weight at (n, i, j). -/
theorem a_eq (n : Fin 8) (i j : Fin 2048) :
    val_main_v25 (F := Ideal) x0 x1 x3 x4 x5 x6 (ix3 n i j)
      = Ideal.div (val_main_v21 (F := Ideal) x0 x1 x3 x4 x5 x6 (ix3 n i j)) (val_main_v22 (F := Ideal) x0 x1 x3 x4 x5 x6 (ix2 n i)) := by
  have e : idx_main_v23 (idx_main_v24 (ix3 n i j)) = ix2 n i := funext fun a => Fin.ext (by match a with | ⟨0, _⟩ => rfl | ⟨1, _⟩ => rfl)
  rw [val_main_v25_apply, val_main_v24_apply, val_main_v23_apply, e]
  rfl

/-- The result at (n, i, d): the second arrangement of the attention row. -/
theorem out_eq (n : Fin 8) (i : Fin 2048) (d : Fin 64) :
    val_main_v26 (F := Ideal) x0 x1 x2 x3 x4 x5 x6 x7 x8 (ix3 n i d)
      = attnRAt c32 (proj x0 x3 x4) (proj x1 x5 x6) (proj x2 x7 x8) n i d := by
  have el : ∀ k : Fin 2048, lidx_main_v26 (ix3 n i d) k = ix3 n i k := fun k => funext fun a => Fin.ext (by match a with | ⟨0, _⟩ => rfl | ⟨1, _⟩ => rfl | ⟨2, _⟩ => rfl)
  have er : ∀ k : Fin 2048, ridx_main_v26 (ix3 n i d) k = ix3 n k d := fun k => funext fun a => Fin.ext (by match a with | ⟨0, _⟩ => rfl | ⟨1, _⟩ => rfl | ⟨2, _⟩ => rfl)
  have hs : (fun j : Fin 2048 => val_main_v14 (F := Ideal) x0 x1 x3 x4 x5 x6 (ix3 n i j))
      = scoreR c32 (fun d : Fin 64 => proj x0 x3 x4 (ix3 n i d)) (fun (j : Fin 2048) (d : Fin 64) => proj x1 x5 x6 (ix3 n j d)) :=
    funext fun j => s_eq x0 x1 x3 x4 x5 x6 n i j
  rw [val_main_v26_apply, v_eq]
  simp only [el, er, a_eq, l_eq, p_eq]
  rw [hs]
  rfl

/-- The reference's result array is the second arrangement of attention over the three projections. -/
theorem result_eq :
    val_main_v26 (F := Ideal) x0 x1 x2 x3 x4 x5 x6 x7 x8 = attnR c32 (proj x0 x3 x4) (proj x1 x5 x6) (proj x2 x7 x8) := by
  funext o
  obtain ⟨n, i, d, rfl⟩ : ∃ (n : Fin 8) (i : Fin 2048) (d : Fin 64), o = ix3 n i d := ⟨o 0, o 1, o 2, eq_ix3 o⟩
  rw [attnR_apply]
  exact out_eq x0 x1 x2 x3 x4 x5 x6 x7 x8 n i d

end Cert.ReferenceIdeal.RefValue

end
-- ==== Proof.Finite.lean ====
/-
  From the printed precondition to real entries.

  The precondition is a conjunction, over the nine argument arrays, of "every entry x has |x| < +∞" (an
  all-reduction by and of an elementwise comparison). On extended reals |x| = max x (-x) is below +∞ exactly
  when x is neither infinity, that is, when x is a real number. So under the precondition every entry of every
  argument array is real.
-/
import proofs.«108945_j78099685310952_2_alg».proof.Pre_finite_inputs
import proofs.«108945_j78099685310952_2_alg».proof.Proof.AttnSpec
import Idealize.ShloMosaic.Lib.ReduceAll
import Idealize.ShloMosaic.PureOps.Ideal.Laws

noncomputable section

namespace Cert.Finite

open Cert.Pre_finite_inputs Idealize.ShloMosaic Idealize.ShloMosaic.ValueIdx Cert.AttnSpec

variable [Cert.Pre_finite_inputs.Facts]
open Cert.Pre_finite_inputs.Facts

/-- The rank-0 shape has one index. -/
instance : Subsingleton S_.Idx := ⟨fun a b => funext fun d => d.elim0⟩

/-- The f32 word of +∞ is the top of the extended reals. -/
theorem ofBits_pos_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = r := by
  rw [ofBits_pos_inf] at h
  induction x using EReal.rec with
  | bot => exact absurd h (by simp [Ideal.cmp])
  | top => exact absurd h (by simp [Ideal.cmp])
  | coe r => exact ⟨r, rfl⟩

/-- One conjunct of the precondition: if the and over every entry of "|x| < +∞" is 1, every entry is real. -/
theorem all_real {s : Shape} {axes : List (Fin s.rank)} (x : FVec Ideal s .f32)
    (bc : S_.BroadcastsInDim s (![] : Fin 0 → Fin s.rank)) (hr : s.ReducesTo axes S_) (hu : 0 < S_.numel)
    (h : Host.reduce IntOp.andi
        (cmpf .olt (Host.absf x) (broadcastInDim s ![] bc (constant (F := Ideal) S_ .f32 0x7F800000#32)))
        (constantI S_ 1 1#1) hr hu ix0 = 1#1) (i : s.Idx) :
    ∃ r : ℝ, x i = r :=
  real_of_abs_lt (x i) (Host.reduce_andi_all _ _ hr hu ix0 h i)

/-- Under the precondition every entry of every argument array is a real number. -/
theorem real_of_pre (a0 a1 a2 : FVec Ideal S8x2048x512 .f32) (a3 : FVec Ideal S512x64 .f32) (a4 : FVec Ideal S64 .f32)
    (a5 : FVec Ideal S512x64 .f32) (a6 : FVec Ideal S64 .f32) (a7 : FVec Ideal S512x64 .f32) (a8 : FVec Ideal S64 .f32)
    (h : fn (F := Ideal) a0 a1 a2 a3 a4 a5 a6 a7 a8 = fun _ => 1#1) :
    Real3 a0 ∧ Real3 a1 ∧ Real3 a2 ∧ Real2 a3 ∧ Real1 a4 ∧ Real2 a5 ∧ Real1 a6 ∧ Real2 a7 ∧ Real1 a8 := by
  have h0 := congrFun h ix0
  dsimp only [fn, fn_part1, fn_part2, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real a0 bcast_S_S8x2048x512 reducesTo_S8x2048x512_S_d0_1_2 h_S_ h0,
    all_real a1 bcast_S_S8x2048x512 reducesTo_S8x2048x512_S_d0_1_2 h_S_ h1,
    all_real a2 bcast_S_S8x2048x512 reducesTo_S8x2048x512_S_d0_1_2 h_S_ h2,
    all_real a3 bcast_S_S512x64 reducesTo_S512x64_S_d0_1 h_S_ h3,
    all_real a4 bcast_S_S64 reducesTo_S64_S_d0 h_S_ h4,
    all_real a5 bcast_S_S512x64 reducesTo_S512x64_S_d0_1 h_S_ h5,
    all_real a6 bcast_S_S64 reducesTo_S64_S_d0 h_S_ h6,
    all_real a7 bcast_S_S512x64 reducesTo_S512x64_S_d0_1 h_S_ h7,
    all_real a8 bcast_S_S64 reducesTo_S64_S_d0 h_S_ h8⟩

end Cert.Finite

end
-- ==== Proof.lean ====
/-
  Scaled dot-product attention over three dense projections: a two-region kernel against its plain reference,
  equal as extended reals under finite inputs.

  Both programs compute q = x_q · W_q + b_q, k = x_k · W_k + b_k, v = x_v · W_v + b_v and then, for every batch,
  query position i and feature d, the attention output. They arrange it differently:

  * the kernel folds the scale 1/8 into q before the contraction with k, takes the row maximum m, forms the
    weights p = exp (s - m), contracts p with v, and divides ONCE by the row sum of p;
  * the reference scales the contraction q · k by 1/8, takes the same maximum (and once more against -∞),
    normalizes each weight by 0 + the row sum, and only then contracts with v.

  On extended reals these agree when every entry is real: a real factor moves across a finite sum of reals, the
  maximum of finitely many reals is one of them, every weight is a positive real so their sum L is a positive
  real, and dividing by L is multiplying by the real 1 / L, which moves across the finite sum. The precondition
  (every input finite) makes every argument entry real, hence every projection entry real.

  The kernel's side is read off its generated frame: each region's stored block is a block of one whole-array
  function, the blocks tile the output, so each region leaves that function in its output array; the second
  region's inputs are the first region's outputs. The reference's side is its generated run, read one operation
  at a time. The idealization rewrote nothing, so the kernel's relation to its idealization is trivial.
-/
import proofs.«108945_j78099685310952_2_alg».proof.Defs
import proofs.«108945_j78099685310952_2_alg».proof.Proof.Gen.Kernel
import proofs.«108945_j78099685310952_2_alg».proof.Proof.Gen.Kernel.Frame
import proofs.«108945_j78099685310952_2_alg».proof.Proof.Gen.KernelIdeal
import proofs.«108945_j78099685310952_2_alg».proof.Proof.Gen.KernelIdeal.Frame
import proofs.«108945_j78099685310952_2_alg».proof.Proof.Gen.ReferenceIdeal
import proofs.«108945_j78099685310952_2_alg».proof.Proof.Gen.ReferenceIdeal.Run
import proofs.«108945_j78099685310952_2_alg».proof.Proof.Gen.ReferenceIdeal.Read
import proofs.«108945_j78099685310952_2_alg».proof.Proof.Gen.Pre_finite_inputs
import proofs.«108945_j78099685310952_2_alg».proof.Proof.KernelValue
import proofs.«108945_j78099685310952_2_alg».proof.Proof.RefValue
import proofs.«108945_j78099685310952_2_alg».proof.Proof.Finite
import proofs.«108945_j78099685310952_2_alg».proof.Proof.Consts
import Idealize.ShloMosaic.Adequacy
import Idealize.ShloMosaic.Init

noncomputable section

namespace Cert.Proof

open Idealize.ShloMosaic Idealize.SL.Sem Cert.AttnSpec

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both scales denote the real 1/8. -/
theorem scale_kernel : Cert.KernelIdeal.Tile.c16 = ((1 / 8 : ℝ) : EReal) := Cert.Consts.ofBits_eighth_bf16
theorem scale_reference : Cert.ReferenceIdeal.RefValue.c32 = ((1 / 8 : ℝ) : EReal) := Cert.Consts.ofBits_eighth_f32

/-- From memories agreeing on the arguments, under the precondition, both idealized programs run and end with one
    result array: the kernel's at the first arrangement of attention over the projections, the reference's at the
    second, and the two agree on real entries. -/
theorem algebraic : Cert.algebraic_KernelIdeal_ReferenceIdeal := by
  intro m ρ m' ρ' hpre hagree
  refine ⟨fun c => Cert.KernelIdeal.Result.G m c, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨r0, r1, r2, r3, r4, r5, r6, r7, r8⟩ := Cert.Finite.real_of_pre _ _ _ _ _ _ _ _ _ (hpre c)
  rw [Cert.ReferenceIdeal.Read.val_main_v26_eq, Cert.ReferenceIdeal.RefValue.result_eq, e0, e1, e2, e3, e4, e5, e6, e7, e8]
  unfold Cert.KernelIdeal.Result.G
  rw [scale_kernel, scale_reference]
  exact (attnK_eq_attnR ⟨_, rfl⟩ (proj_real r0 r3 r4) (proj_real r1 r5 r6) (proj_real r2 r7 r8)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
